-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x768 : Shape := ⟨2, ![256, 768]⟩
abbrev S256 : Shape := ⟨1, ![256]⟩
abbrev S256x512 : Shape := ⟨2, ![256, 512]⟩
abbrev S32000x256 : Shape := ⟨2, ![32000, 256]⟩
abbrev S32000 : Shape := ⟨1, ![32000]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S32000x256 : S_.BroadcastsInDim S32000x256 (![] : Fin 0 → Fin S32000x256.rank)
  reducesTo_S32000x256_S_d0_1 : S32000x256.ReducesTo [0, 1] S_
  bcast_S_S32000 : S_.BroadcastsInDim S32000 (![] : Fin 0 → Fin S32000.rank)
  reducesTo_S32000_S_d0 : S32000.ReducesTo [0] S_

variable [Facts]

def fn_part3 {F : FTy → Type} [FloatOps F] (main_arg11 : FVec F S32000x256 .f32) (main_arg12 : FVec F S32000 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S32000x256 .f32 := Host.absf main_arg11
  let main_cst_20 : FVec F S_ .f32 := constant S_ .f32 0x7F800000#32
  let main_v55 : FVec F S32000x256 .f32 := broadcastInDim S32000x256 ![] bcast_S_S32000x256 main_cst_20
  let main_v56 : IVec S32000x256 1 := cmpf .olt main_v54 main_v55
  let main_c_21 : IVec S_ 1 := constantI S_ 1 1#1
  let main_v57 : IVec S_ 1 := (fun x v => Host.reduce IntOp.andi x v reducesTo_S32000x256_S_d0_1 h_S_) main_v56 main_c_21
  let main_v58 : IVec S_ 1 := andi main_v53 main_v57
  let main_v59 : FVec F S32000 .f32 := Host.absf main_arg12
  let main_cst_22 : FVec F S_ .f32 := constant S_ .f32 0x7F800000#32
  let main_v60 : FVec F S32000 .f32 := broadcastInDim S32000 ![] bcast_S_S32000 main_cst_22
  let main_v61 : IVec S32000 1 := cmpf .olt main_v59 main_v60
  let main_c_23 : IVec S_ 1 := constantI S_ 1 1#1
  let main_v62 : IVec S_ 1 := (fun x v => Host.reduce IntOp.andi x v reducesTo_S32000_S_d0 h_S_) main_v61 main_c_23
  let main_v63 : IVec S_ 1 := andi main_v58 main_v62
  main_v63

def fn_part2 {F : FTy → Type} [FloatOps F] (main_arg7 : FVec F S256x768 .f32) (main_arg8 : FVec F S256 .f32) (main_arg9 : FVec F S256x512 .f32) (main_arg10 : FVec F S256 .f32) (main_arg11 : FVec F S32000x256 .f32) (main_arg12 : FVec F S32000 .f32) (main_v33 : IVec S_ 1) : IVec S_ 1 :=
  let main_v34 : FVec F S256x768 .f32 := Host.absf main_arg7
  let main_cst_12 : FVec F S_ .f32 := constant S_ .f32 0x7F800000#32
  let main_v35 : FVec F S256x768 .f32 := broadcastInDim S256x768 ![] bcast_S_S256x768 main_cst_12
  let main_v36 : IVec S256x768 1 := cmpf .olt main_v34 main_v35
  let main_c_13 : IVec S_ 1 := constantI S_ 1 1#1
  let main_v37 : IVec S_ 1 := (fun x v => Host.reduce IntOp.andi x v reducesTo_S256x768_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S256x768 .f32) (main_arg6 : FVec F S256 .f32) (main_arg7 : FVec F S256x768 .f32) (main_arg8 : FVec F S256 .f32) (main_arg9 : FVec F S256x512 .f32) (main_arg10 : FVec F S256 .f32) (main_arg11 : FVec F S32000x256 .f32) (main_arg12 : FVec F S32000 .f32) (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x768 .f32 := Host.absf main_arg5
  let main_cst_8 : FVec F S_ .f32 := constant S_ .f32 0x7F800000#32
  let main_v25 : FVec F S256x768 .f32 := broadcastInDim S256x768 ![] bcast_S_S256x768 main_cst_8
  let main_v26 : IVec S256x768 1 := cmpf .olt main_v24 main_v25
  let main_c_9 : IVec S_ 1 := constantI S_ 1 1#1
  let main_v27 : IVec S_ 1 := (fun x v => Host.reduce IntOp.andi x v reducesTo_S256x768_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x256 .f32) (main_arg1 : FVec F S8192x256 .f32) (main_arg2 : FVec F S8192x256 .f32) (main_arg3 : FVec F S256x768 .f32) (main_arg4 : FVec F S256 .f32) (main_arg5 : FVec F S256x768 .f32) (main_arg6 : FVec F S256 .f32) (main_arg7 : FVec F S256x768 .f32) (main_arg8 : FVec F S256 .f32) (main_arg9 : FVec F S256x512 .f32) (main_arg10 : FVec F S256 .f32) (main_arg11 : FVec F S32000x256 .f32) (main_arg12 : FVec F S32000 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S256x768 .f32 := Host.absf main_arg3
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_arg4 main_arg5 main_arg6 main_arg7 main_arg8 main_arg9 main_arg10 main_arg11 main_arg12 main_v13 main_v16
-- ==== Kernel.lean ====
abbrev S8192x256 : Shape := ⟨2, ![8192, 256]⟩
abbrev S256x768 : Shape := ⟨2, ![256, 768]⟩
abbrev S256 : Shape := ⟨1, ![256]⟩
abbrev S256x512 : Shape := ⟨2, ![256, 512]⟩
abbrev S32000x256 : Shape := ⟨2, ![32000, 256]⟩
abbrev S32000 : Shape := ⟨1, ![32000]⟩
abbrev S1x256 : Shape := ⟨2, ![1, 256]⟩
abbrev S1x32000 : Shape := ⟨2, ![1, 32000]⟩
abbrev S1024x256 : Shape := ⟨2, ![1024, 256]⟩
abbrev S1024x768 : Shape := ⟨2, ![1024, 768]⟩
abbrev S1024x512 : Shape := ⟨2, ![1024, 512]⟩
abbrev S8192x32000 : Shape := ⟨2, ![8192, 32000]⟩
abbrev S512x256 : Shape := ⟨2, ![512, 256]⟩
abbrev S3200x256 : Shape := ⟨2, ![3200, 256]⟩
abbrev S1x3200 : Shape := ⟨2, ![1, 3200]⟩
abbrev S512x3200 : Shape := ⟨2, ![512, 3200]⟩

abbrev nBuf : Space → Nat
  | .hbm => 21
  | .vmem => 26
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S256x768, .f32⟩
  | .hbm, ⟨4, _⟩ => ⟨S256, .f32⟩
  | .hbm, ⟨5, _⟩ => ⟨S256x768, .f32⟩
  | .hbm, ⟨6, _⟩ => ⟨S256, .f32⟩
  | .hbm, ⟨7, _⟩ => ⟨S256x768, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S32000x256, .f32⟩
  | .hbm, ⟨12, _⟩ => ⟨S32000, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x32000, .f32⟩
  | .hbm, ⟨18, _⟩ => ⟨S8192x256, .f32⟩
  | .hbm, ⟨19, _⟩ => ⟨S8192x256, .f32⟩
  | .hbm, ⟨20, _⟩ => ⟨S8192x32000, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x768, .f32⟩
  | .local _ .vmem, ⟨7, _⟩ => ⟨S1x256, .f32⟩
  | .local _ .vmem, ⟨8, _⟩ => ⟨S256x768, .f32⟩
  | .local _ .vmem, ⟨9, _⟩ => ⟨S1x256, .f32⟩
  | .local _ .vmem, ⟨10, _⟩ => ⟨S256x768, .f32⟩
  | .local _ .vmem, ⟨11, _⟩ => ⟨S1x256, .f32⟩
  | .local _ .vmem, ⟨12, _⟩ => ⟨S256x512, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S512x256, .f32⟩
  | .local _ .vmem, ⟨19, _⟩ => ⟨S512x256, .f32⟩
  | .local _ .vmem, ⟨20, _⟩ => ⟨S3200x256, .f32⟩
  | .local _ .vmem, ⟨21, _⟩ => ⟨S3200x256, .f32⟩
  | .local _ .vmem, ⟨22, _⟩ => ⟨S1x3200, .f32⟩
  | .local _ .vmem, ⟨23, _⟩ => ⟨S1x3200, .f32⟩
  | .local _ .vmem, ⟨24, _⟩ => ⟨S512x3200, .f32⟩
  | .local _ .vmem, ⟨25, _⟩ => ⟨S512x3200, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![10, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S256_S1x256 : S256.ShapeCasts S1x256
  shapeCasts_S32000_S1x32000 : S32000.ShapeCasts S1x32000
  inb_S1024x256_S1024x256_0_0 : ∀ a, (![0, 0] : Fin 2 → Nat) a + S1024x256.size a ≤ S1024x256.size a
  h_S1024x256 : 0 < S1024x256.numel
  concatenates_S1024x256_S1024x256_S1024x256_S1024x768_d1 : Shape.Concatenates [S1024x256, S1024x256, S1024x256] S1024x768 1
  concatenates_S1024x256_S1024x256_S1024x512_d1 : Shape.Concatenates [S1024x256, S1024x256] S1024x512 1
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S3200x256_S3200x256_0_0 : ∀ a, (![0, 0] : Fin 2 → Nat) a + S3200x256.size a ≤ S3200x256.size a
  h_S3200x256 : 0 < S3200x256.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S512x3200 : S1x3200.Broadcasts S512x3200
  inb_S512x3200_S512x3200_0_0 : ∀ a, (![0, 0] : Fin 2 → Nat) a + S512x3200.size a ≤ S512x3200.size a
  h_S512x3200 : 0 < S512x3200.numel
  dot_S1024x768_S256x768_S1024x256_1_1_0_0_n_n_wf : DotDims.WF S1024x768 S256x768 S1024x256 [1] [1] [0] [0] [] []
  dot_S1024x512_S256x512_S1024x256_1_1_0_0_n_n_wf : DotDims.WF S1024x512 S256x512 S1024x256 [1] [1] [0] [0] [] []
  dot_S512x256_S3200x256_S512x3200_1_1_0_0_n_n_wf : DotDims.WF S512x256 S3200x256 S512x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .f32 = 32 ∨ (Rect.block (s := S256x768) S256x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S256x768.size a
  hwx0_5 : ∀ i : grid0.Coords, EltTy.bits .f32 = 32 ∨ (Rect.block (s := S256x768) S256x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x768.size a ≤ S256x768.size a
  hwx0_7 : ∀ i : grid0.Coords, EltTy.bits .f32 = 32 ∨ (Rect.block (s := S256x768) S256x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S256x512.size a
  hwx0_9 : ∀ i : grid0.Coords, EltTy.bits .f32 = 32 ∨ (Rect.block (s := S256x512) S256x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S8192x256.size a
  hwx0_11 : ∀ i : grid0.Coords, EltTy.bits .f32 = 32 ∨ (Rect.block (s := S8192x256) S1024x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x256.size a ≤ S8192x256.size a
  hwx0_12 : ∀ i : grid0.Coords, EltTy.bits .f32 = 32 ∨ (Rect.block (s := S8192x256) S1024x256.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .f32 = 32 ∨ (Rect.block (s := S8192x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x256.size a ≤ S32000x256.size a
  hwx1_1 : ∀ i : grid1.Coords, EltTy.bits .f32 = 32 ∨ (Rect.block (s := S32000x256) S3200x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3200.size a ≤ S1x32000.size a
  hwx1_2 : ∀ i : grid1.Coords, EltTy.bits .f32 = 32 ∨ (Rect.block (s := S1x32000) S1x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x3200.size a ≤ S8192x32000.size a
  hwx1_3 : ∀ i : grid1.Coords, EltTy.bits .f32 = 32 ∨ (Rect.block (s := S8192x32000) S512x3200.size (cc1_transform_3 i) (hinb1_3 i)).WholeWords (EltTy.packing .f32)

variable [Facts₀]

def dot_S1024x768_S256x768_S1024x256_1_1_0_0_n_n : DotDims S1024x768 S256x768 S1024x256 where
  lhsContracting := [1]
  rhsContracting := [1]
  lhsNonContracting := [0]
  rhsNonContracting := [0]
  lhsBatch := []
  rhsBatch := []
  wf := dot_S1024x768_S256x768_S1024x256_1_1_0_0_n_n_wf
def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf
def dot_S512x256_S3200x256_S512x3200_1_1_0_0_n_n : DotDims S512x256 S3200x256 S512x3200 where
  lhsContracting := [1]
  rhsContracting := [1]
  lhsNonContracting := [0]
  rhsNonContracting := [0]
  lhsBatch := []
  rhsBatch := []
  wf := dot_S512x256_S3200x256_S512x3200_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5_0) S1024x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5_1) S1024x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v5_1) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S3200x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x3200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x256 : Shape := ⟨2, ![8192, 256]⟩
abbrev S256x768 : Shape := ⟨2, ![256, 768]⟩
abbrev S256 : Shape := ⟨1, ![256]⟩
abbrev S256x512 : Shape := ⟨2, ![256, 512]⟩
abbrev S32000x256 : Shape := ⟨2, ![32000, 256]⟩
abbrev S32000 : Shape := ⟨1, ![32000]⟩
abbrev S8192x768 : Shape := ⟨2, ![8192, 768]⟩
abbrev S768x256 : Shape := ⟨2, ![768, 256]⟩
abbrev S1x256 : Shape := ⟨2, ![1, 256]⟩
abbrev S_ : Shape := ⟨0, ![]⟩
abbrev S8192x512 : Shape := ⟨2, ![8192, 512]⟩
abbrev S512x256 : Shape := ⟨2, ![512, 256]⟩
abbrev S256x32000 : Shape := ⟨2, ![256, 32000]⟩
abbrev S8192x32000 : Shape := ⟨2, ![8192, 32000]⟩
abbrev S1x32000 : Shape := ⟨2, ![1, 32000]⟩

abbrev nBuf : Space → Nat
  | .hbm => 70
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S256x768, .f32⟩
  | .hbm, ⟨4, _⟩ => ⟨S256, .f32⟩
  | .hbm, ⟨5, _⟩ => ⟨S256x768, .f32⟩
  | .hbm, ⟨6, _⟩ => ⟨S256, .f32⟩
  | .hbm, ⟨7, _⟩ => ⟨S256x768, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S32000x256, .f32⟩
  | .hbm, ⟨12, _⟩ => ⟨S32000, .f32⟩
  | .hbm, ⟨13, _⟩ => ⟨S8192x768, .f32⟩
  | .hbm, ⟨14, _⟩ => ⟨S768x256, .f32⟩
  | .hbm, ⟨15, _⟩ => ⟨S8192x256, .f32⟩
  | .hbm, ⟨16, _⟩ => ⟨S1x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S_, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192x256, .f32⟩
  | .hbm, ⟨26, _⟩ => ⟨S8192x256, .f32⟩
  | .hbm, ⟨27, _⟩ => ⟨S768x256, .f32⟩
  | .hbm, ⟨28, _⟩ => ⟨S8192x256, .f32⟩
  | .hbm, ⟨29, _⟩ => ⟨S1x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192x256, .f32⟩
  | .hbm, ⟨36, _⟩ => ⟨S8192x256, .f32⟩
  | .hbm, ⟨37, _⟩ => ⟨S_, .f32⟩
  | .hbm, ⟨38, _⟩ => ⟨S8192x256, .f32⟩
  | .hbm, ⟨39, _⟩ => ⟨S8192x256, .f32⟩
  | .hbm, ⟨40, _⟩ => ⟨S768x256, .f32⟩
  | .hbm, ⟨41, _⟩ => ⟨S8192x256, .f32⟩
  | .hbm, ⟨42, _⟩ => ⟨S1x256, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S_, .f32⟩
  | .hbm, ⟨48, _⟩ => ⟨S8192x256, .f32⟩
  | .hbm, ⟨49, _⟩ => ⟨S8192x256, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S8192x512, .f32⟩
  | .hbm, ⟨54, _⟩ => ⟨S512x256, .f32⟩
  | .hbm, ⟨55, _⟩ => ⟨S8192x256, .f32⟩
  | .hbm, ⟨56, _⟩ => ⟨S1x256, .f32⟩
  | .hbm, ⟨57, _⟩ => ⟨S8192x256, .f32⟩
  | .hbm, ⟨58, _⟩ => ⟨S8192x256, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S8192x256, .f32⟩
  | .hbm, ⟨63, _⟩ => ⟨S8192x256, .f32⟩
  | .hbm, ⟨64, _⟩ => ⟨S8192x256, .f32⟩
  | .hbm, ⟨65, _⟩ => ⟨S256x32000, .f32⟩
  | .hbm, ⟨66, _⟩ => ⟨S8192x32000, .f32⟩
  | .hbm, ⟨67, _⟩ => ⟨S1x32000, .f32⟩
  | .hbm, ⟨68, _⟩ => ⟨S8192x32000, .f32⟩
  | .hbm, ⟨69, _⟩ => ⟨S8192x32000, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  concatenates_S8192x256_S8192x256_S8192x256_S8192x768_d1 : Shape.Concatenates [S8192x256, S8192x256, S8192x256] S8192x768 1
  transposes_S256x768_S768x256_1_0 : S256x768.Transposes [1, 0] S768x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  concatenates_S8192x256_S8192x256_S8192x512_d1 : Shape.Concatenates [S8192x256, S8192x256] S8192x512 1
  transposes_S256x512_S512x256_1_0 : S256x512.Transposes [1, 0] S512x256
  transposes_S32000x256_S256x32000_1_0 : S32000x256.Transposes [1, 0] S256x32000
  bcast_S32000_S1x32000_1 : S32000.BroadcastsInDim S1x32000 (![1] : Fin 1 → Fin S1x32000.rank)
  bcast_S1x32000_S8192x32000_0_1 : S1x32000.BroadcastsInDim S8192x32000 (![0, 1] : Fin 2 → Fin S8192x32000.rank)
  dot_S8192x768_S768x256_S8192x256_1_0_0_1_n_n_wf : DotDims.WF S8192x768 S768x256 S8192x256 [1] [0] [0] [1] [] []
  dot_S8192x512_S512x256_S8192x256_1_0_0_1_n_n_wf : DotDims.WF S8192x512 S512x256 S8192x256 [1] [0] [0] [1] [] []
  dot_S8192x256_S256x32000_S8192x32000_1_0_0_1_n_n_wf : DotDims.WF S8192x256 S256x32000 S8192x32000 [1] [0] [0] [1] [] []

variable [Facts₀]

def dot_S8192x768_S768x256_S8192x256_1_0_0_1_n_n : DotDims S8192x768 S768x256 S8192x256 where
  lhsContracting := [1]
  rhsContracting := [0]
  lhsNonContracting := [0]
  rhsNonContracting := [1]
  lhsBatch := []
  rhsBatch := []
  wf := dot_S8192x768_S768x256_S8192x256_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x32000_S8192x32000_1_0_0_1_n_n : DotDims S8192x256 S256x32000 S8192x32000 where
  lhsContracting := [1]
  rhsContracting := [0]
  lhsNonContracting := [0]
  rhsNonContracting := [1]
  lhsBatch := []
  rhsBatch := []
  wf := dot_S8192x256_S256x32000_S8192x32000_1_0_0_1_n_n_wf

class Facts : Prop extends Facts₀ where

variable [Facts]
-- ==== Proof.KRun.lean ====
/-
  The whole program's run, with its final memory named.  @main is a stretch of host operations and two kernel
  regions; the contents of the TensorCore's buffers at the boundaries between them are a fold from the launch
  memory: the host stretch applied to the launch contents, then each region's arrays replaced by what its
  write-backs leave.  Every weakly fair execution terminates, and every final state holds, in every buffer that
  outlives the regions, the last boundary's contents.  The three results are then read off that fold: the next
  cell states are the first region's first output; the next hidden states are its second output, which the second
  region only reads; the logits are the second region's output.
-/
import proofs.«110501_j56401510531656_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of @main terminates, and in every final state each buffer that outlives the
    regions holds the contents of the last boundary of the fold. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The three results and the thirteen arguments are among the buffers that outlive the regions; so after the
    run each holds the last boundary's contents, and an argument's are the launch contents. -/
theorem run_results : θ_run defs (onTc (τ := τ) (main (F := F))) ⟨m, fun _ => 0, ρ⟩ (fun r => ∀ c : Dev nD,
      r.2.mem ((c.tc : Thread nD τ).loc main_v5_0) = W3 m ρ c (Proc.devRef .tc main_v5_0)
      ∧ r.2.mem ((c.tc : Thread nD τ).loc main_v5_1) = W3 m ρ c (Proc.devRef .tc main_v5_1)
      ∧ r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v5_0 (by decide)), h c _ (mem_uc main_v5_1 (by decide)), h c _ (mem_uc main_v6 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c),
     (h c _ (mem_uc main_arg12 (by decide))).trans (W3_main_arg12 m ρ c)⟩)
    (run_last m ρ)

end Cert.KernelIdeal.RunValue

end
-- ==== Proof.Spec.lean ====
/-
  One step of a long short-term memory cell followed by a projection onto a vocabulary, written entry by entry
  on the extended reals.

  For one row of the batch the inputs are three rows of 256 numbers: the previous cell state c, the previous
  hidden state h and the embedded token x.  Three gates read the joined row (c, h, x) of 768 numbers, the
  candidate reads the joined row (h, x) of 512 numbers; each is an inner product with one row of a weight array
  plus one entry of a bias.  With σ the logistic function,

      c' = σ(f) · c + σ(u) · tanh(g),      h' = σ(o) · tanh(c'),      y = ⟨h', w⟩ + b.

  Every entry of the three results depends on ONE row of the batch arrays and ONE row of a weight array, so the
  functions below take rows; the arrays of results are then written over arrays of any number of rows, which is
  what lets a block of rows be compared with the whole array.  Nothing here knows a program.
-/
import Idealize.ShloMosaic.PureOps.Ideal
import Idealize.ShloMosaic.Lib.ValueIdx

noncomputable section

open scoped BigOperators

namespace Cert.LstmSpec

open Idealize.ShloMosaic Idealize.ShloMosaic.ValueIdx

/-- Three rows of 256 entries laid end to end: entry k comes from the first row when k < 256, from the second
    when 256 ≤ k < 512, from the third otherwise. -/
def join3 (c h x : Fin 256 → EReal) (k : Fin 768) : EReal :=
  if h1 : k.val < 256 then c ⟨k.val, h1⟩
  else if h2 : k.val < 512 then h ⟨k.val - 256, by omega⟩
  else x ⟨k.val - 512, by have := k.isLt; omega⟩

/-- Two rows of 256 entries laid end to end. -/
def join2 (h x : Fin 256 → EReal) (k : Fin 512) : EReal :=
  if h1 : k.val < 256 then h ⟨k.val, h1⟩
  else x ⟨k.val - 256, by have := k.isLt; omega⟩

/-- The inner product of two rows plus a bias. -/
def affine {K : ℕ} (v w : Fin K → EReal) (b : EReal) : EReal := (∑ k : Fin K, v k * w k) + b

/-- The next cell state from the three pre-activations and the previous cell state. -/
def cellNext (f u g cprev : EReal) : EReal := Ideal.logistic f * cprev + Ideal.logistic u * Ideal.tanh g

/-- The next hidden state from the output gate's pre-activation and the next cell state. -/
def hidNext (o ct : EReal) : EReal := Ideal.logistic o * Ideal.tanh ct

/-- An array of a rows and b columns of extended reals. -/
abbrev Mat (a b : ℕ) : Type := (⟨2, ![a, b]⟩ : Shape).Idx → EReal

/-- Row p of an array. -/
def row {a b : ℕ} (A : Mat a b) (p : Fin a) : Fin b → EReal := fun q => A (ix2 p q)

variable {a : ℕ}

/-- The array of next cell states: entry (p, u) from row p of the batch arrays and row u of the weights. -/
def cellArr (x c h : Mat a 256) (Wf : Mat 256 768) (bf : Fin 256 → EReal) (Wu : Mat 256 768) (bu : Fin 256 → EReal)
    (Wc : Mat 256 512) (bc : Fin 256 → EReal) : Mat a 256 := fun i =>
  cellNext (affine (join3 (row c (i 0)) (row h (i 0)) (row x (i 0))) (row Wf (i 1)) (bf (i 1)))
    (affine (join3 (row c (i 0)) (row h (i 0)) (row x (i 0))) (row Wu (i 1)) (bu (i 1)))
    (affine (join2 (row h (i 0)) (row x (i 0))) (row Wc (i 1)) (bc (i 1)))
    (c (ix2 (i 0) (i 1)))

/-- The array of next hidden states. -/
def hidArr (x c h : Mat a 256) (Wf : Mat 256 768) (bf : Fin 256 → EReal) (Wu : Mat 256 768) (bu : Fin 256 → EReal)
    (Wo : Mat 256 768) (bo : Fin 256 → EReal) (Wc : Mat 256 512) (bc : Fin 256 → EReal) : Mat a 256 := fun i =>
  hidNext (affine (join3 (row c (i 0)) (row h (i 0)) (row x (i 0))) (row Wo (i 1)) (bo (i 1)))
    (cellArr x c h Wf bf Wu bu Wc bc (ix2 (i 0) (i 1)))

/-- The array of logits: entry (p, v) is the inner product of row p of the hidden states with row v of the
    projection plus entry v of its bias. -/
def logitArr {n : ℕ} (hid : Mat a 256) (Wl : Mat n 256) (bl : Fin n → EReal) : Mat a n := fun i =>
  affine (row hid (i 0)) (row Wl (i 1)) (bl (i 1))

end Cert.LstmSpec

end
-- ==== Proof.JoinRead.lean ====
/-
  A concatenation along the columns of three (or two) arrays of a rows and 256 columns, read at the entry
  (p, k): the joined row of the pieces' rows p.  The number of rows is free, so the same statement reads a block
  of rows and the whole array.  Nothing here knows a program.
-/
import proofs.«110501_j56401510531656_1_alg».proof.Proof.Spec
import Idealize.ShloMosaic.Lib.Pipeline.Value

noncomputable section

namespace Cert.LstmSpec

open Idealize.ShloMosaic Idealize.ShloMosaic.ValueIdx

variable {a : ℕ}

/-- Three pieces side by side: the entry in column k is the first piece's when k < 256, the second's at column
    k − 256 when k < 512, the third's at column k − 512 otherwise. -/
theorem concat3_apply (x1 x2 x3 : Mat a 256)
    (h : Shape.Concatenates (([⟨⟨2, ![a, 256]⟩, x1⟩, ⟨⟨2, ![a, 256]⟩, x2⟩, ⟨⟨2, ![a, 256]⟩, x3⟩] :
      List ((s : Shape) × (s.Idx → EReal))).map (·.1)) ⟨2, ![a, 768]⟩ 1)
    (p : Fin a) (k : Fin 768) :
    concatenate ⟨2, ![a, 768]⟩ 1 [⟨⟨2, ![a, 256]⟩, x1⟩, ⟨⟨2, ![a, 256]⟩, x2⟩, ⟨⟨2, ![a, 256]⟩, x3⟩] h (ix2 p k)
      = join3 (row x1 p) (row x2 p) (row x3 p) k := by
  unfold join3 row
  have hk := k.isLt
  split
  · next h1 =>
    refine concatenate_apply_piece (1 : Fin 2) _ h (ix2 p k) 0 (by simp) ⟨2, ![a, 256]⟩ x1 rfl rfl 0 rfl
      (ix2 p ⟨k.val, h1⟩) (fun b hb => ?_) (by show 0 + k.val = k.val; omega)
    match b with
    | ⟨0, _⟩ => rfl
    | ⟨1, _⟩ => exact absurd rfl hb
  · next h1 =>
    split
    · next h2 =>
      refine concatenate_apply_piece (1 : Fin 2) _ h (ix2 p k) 1 (by simp) ⟨2, ![a, 256]⟩ x2 rfl rfl 256 rfl
        (ix2 p ⟨k.val - 256, by omega⟩) (fun b hb => ?_) (by show 256 + (k.val - 256) = k.val; omega)
      match b with
      | ⟨0, _⟩ => rfl
      | ⟨1, _⟩ => exact absurd rfl hb
    · next h2 =>
      refine concatenate_apply_piece (1 : Fin 2) _ h (ix2 p k) 2 (by simp) ⟨2, ![a, 256]⟩ x3 rfl rfl 512 rfl
        (ix2 p ⟨k.val - 512, by omega⟩) (fun b hb => ?_) (by show 512 + (k.val - 512) = k.val; omega)
      match b with
      | ⟨0, _⟩ => rfl
      | ⟨1, _⟩ => exact absurd rfl hb

/-- Two pieces side by side. -/
theorem concat2_apply (x1 x2 : Mat a 256)
    (h : Shape.Concatenates (([⟨⟨2, ![a, 256]⟩, x1⟩, ⟨⟨2, ![a, 256]⟩, x2⟩] :
      List ((s : Shape) × (s.Idx → EReal))).map (·.1)) ⟨2, ![a, 512]⟩ 1)
    (p : Fin a) (k : Fin 512) :
    concatenate ⟨2, ![a, 512]⟩ 1 [⟨⟨2, ![a, 256]⟩, x1⟩, ⟨⟨2, ![a, 256]⟩, x2⟩] h (ix2 p k)
      = join2 (row x1 p) (row x2 p) k := by
  unfold join2 row
  have hk := k.isLt
  split
  · next h1 =>
    refine concatenate_apply_piece (1 : Fin 2) _ h (ix2 p k) 0 (by simp) ⟨2, ![a, 256]⟩ x1 rfl rfl 0 rfl
      (ix2 p ⟨k.val, h1⟩) (fun b hb => ?_) (by show 0 + k.val = k.val; omega)
    match b with
    | ⟨0, _⟩ => rfl
    | ⟨1, _⟩ => exact absurd rfl hb
  · next h1 =>
    refine concatenate_apply_piece (1 : Fin 2) _ h (ix2 p k) 1 (by simp) ⟨2, ![a, 256]⟩ x2 rfl rfl 256 rfl
      (ix2 p ⟨k.val - 256, by omega⟩) (fun b hb => ?_) (by show 256 + (k.val - 256) = k.val; omega)
    match b with
    | ⟨0, _⟩ => rfl
    | ⟨1, _⟩ => exact absurd rfl hb

end Cert.LstmSpec

end
-- ==== Proof.LibAttnRead.lean ====
/-
  Vector operations of rank-3 literal shapes read at an index built from coordinates, at the extended reals:
  a product contracting one axis with the operands' index maps named by the caller; the maximum and the sum
  along the last axis of an a × b × c array; a rank-2 array given a trailing unit axis and a trailing unit axis
  broadcast along the lanes; a leading unit axis broadcast; the two leading axes of a rank-3 array merged into
  one and split again.  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.AttnRead

open Idealize.ShloMosaic Idealize.ShloMosaic.ValueIdx

variable {α : Type}

/-- A product into the zero accumulator contracting ONE axis of extent `K`, read at the output index `j`: when the
    operands' indices at `j` and contraction coordinate `k` are `L k` and `R k`, the entry is Σ_k lhs (L k) · rhs (R k). -/
theorem matmul_zero_single_apply {sl sr so : Shape} {φ₁ φ₂ : FTy} {K : ℕ} (D : DotDims sl sr so)
    (prec : Option ContractPrecision) (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The maximum along the last axis of an `a × b × c` array, from the word `0xFF800000`, is at `(p, q)` the fold of
    `max` over the entries `(p, q, ·)`. -/
theorem laneMax3_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec FTy.f32.bits) = FKind.maximumf.neutral .f32 hφ) (p : Fin a) (q : Fin b) :
    multiReduction .maximumf [2] ⟨2, ![a, b]⟩ src 0xFF800000#32 h hφ hacc (ix2 p q)
      = (Finset.univ : Finset (Fin c)).fold max (Ideal.ofBits .f32 0xFF800000#32) (fun k => src (ix3 p q k)) := by
  refine (Ideal.multiReduction_maximumf_single src 0xFF800000#32 h hφ hacc (ix2 p q)).trans ?_
  show (Finset.univ : Finset (Fin c)).fold max (Ideal.ofBits .f32 0xFF800000#32) (fun k => src (h.lift (ix2 p q) k)) = _
  refine congrArg (fun f => Finset.fold max (Ideal.ofBits .f32 0xFF800000#32) f (Finset.univ : Finset (Fin c)))
    (funext fun k => congrArg src (funext fun d => Fin.ext ?_))
  match d with
  | ⟨0, _⟩ => rfl
  | ⟨1, _⟩ => rfl
  | ⟨2, _⟩ => rfl

/-- The sum along the last axis of an `a × b × c` array, from the zero word, is at `(p, q)` the finite sum of the
    entries `(p, q, ·)`. -/
theorem laneSum3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec FTy.f32.bits) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  show ∑ k : Fin c, src (h.lift (ix2 p q) k) = _
  refine Finset.sum_congr rfl fun k _ => congrArg src (funext fun d => Fin.ext ?_)
  match d with
  | ⟨0, _⟩ => rfl
  | ⟨1, _⟩ => rfl
  | ⟨2, _⟩ => rfl

/-- An `a × b` array given a trailing unit axis reads, at `(p, q, 0)`, the array at `(p, q)`. -/
theorem shapeCast_ab_ab1_apply {a b : ℕ} (v : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ v h (ix3 p q z) = v (ix2 p q) :=
  shapeCast_apply v h _ _ (by
    have hz : z.val = 0 := by omega
    rw [Shape.rowMajor_val_three, Shape.rowMajor_val_two]
    show p.val * b + q.val = (p.val * b + q.val) * 1 + z.val
    omega)

/-- An `a × b × 1` array broadcast along the lanes to `a × b × c` reads, at `(p, q, k)`, the array at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `1 × a × b` array broadcast along a new leading extent `m` reads, at `(u, i, j)`, the array at `(0, i, j)`. -/
theorem broadcastTo_1ab_mab_apply {m a b : ℕ} (v : (⟨3, ![1, a, b]⟩ : Shape).Idx → α)
    (h : (⟨3, ![1, a, b]⟩ : Shape).Broadcasts ⟨3, ![m, a, b]⟩) (u : Fin m) (i : Fin a) (j : Fin b) :
    broadcastTo ⟨3, ![m, a, b]⟩ v h (ix3 u i j) = v (ix3 (0 : Fin 1) i j) := by
  refine broadcastTo_apply v h (ix3 u i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `n × c` array, `n = a · b`, viewed as `a × b × c` reads, at `(p, q, r)`, the array at row `p · b + q`. -/
theorem shapeCast_split_apply {a b c n : ℕ} (x : (⟨2, ![n, c]⟩ : Shape).Idx → α)
    (h : (⟨2, ![n, c]⟩ : Shape).ShapeCasts ⟨3, ![a, b, c]⟩) (p : Fin a) (q : Fin b) (r : Fin c) (pq : Fin n)
    (hpq : pq.val = p.val * b + q.val) : shapeCast ⟨3, ![a, b, c]⟩ x h (ix3 p q r) = x (ix2 pq r) :=
  shapeCast_apply x h _ _ (by
    rw [Shape.rowMajor_val_three, Shape.rowMajor_val_two]
    show pq.val * c + r.val = (p.val * b + q.val) * c + r.val
    rw [hpq])

/-- An `a × b × c` array viewed as `n × c`, `n = a · b`, reads, at row `p · b + q`, the array at `(p, q, r)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (r : Fin c) (pq : Fin n)
    (hpq : pq.val = p.val * b + q.val) : shapeCast ⟨2, ![n, c]⟩ x h (ix2 pq r) = x (ix3 p q r) :=
  shapeCast_apply x h _ _ (by
    rw [Shape.rowMajor_val_three, Shape.rowMajor_val_two]
    show (p.val * b + q.val) * c + r.val = pq.val * c + r.val
    rw [hpq])

end Cert.AttnRead

end
-- ==== Proof.LibRowsByRows.lean ====
/-
  Two reads at an entry (p, u), on the extended reals.

  The product of an a × K array by a b × K array with the LAST axis of both contracted, formed into the zero
  accumulator, is the sum over k of lhs (p, k) · rhs (u, k): each output entry is the inner product of a row of
  the left operand with a ROW of the right one (a weight array kept as outputs × inputs).  The operands may be
  typed at any float formats.  The dimension record enters through its contracted rank and extent and four facts
  about where it sends an output index and a contraction index.

  A row of n numbers kept as a 1 × n array and repeated down a rows reads its entry u.

  Nothing here knows a program.
-/
import proofs.«110501_j56401510531656_1_alg».proof.Proof.LibAttnRead

noncomputable section

open scoped BigOperators

namespace Cert.RowsByRows

open Idealize.ShloMosaic Idealize.ShloMosaic.ValueIdx

variable {a b K : ℕ} {φ₁ φ₂ : FTy}

/-- Rows against rows: the entry (p, u) of the product is Σ_k lhs (p, k) · rhs (u, k). -/
theorem matmul_rows_rows_apply (D : DotDims ⟨2, ![a, K]⟩ ⟨2, ![b, K]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (lhs : FVec Ideal ⟨2, ![a, K]⟩ φ₁) (rhs : FVec Ideal ⟨2, ![b, K]⟩ φ₂) (p : Fin a) (u : Fin b) :
    FloatOps.matmul D prec lhs rhs (constant ⟨2, ![a, b]⟩ .f32 0x00000000#32) (ix2 p u)
      = ∑ k : Fin K, lhs (ix2 p k) * rhs (ix2 u k) := by
  refine Cert.AttnRead.matmul_zero_single_apply D prec hr hs lhs rhs (ix2 p u) (fun k => ix2 p k) (fun k => ix2 u k)
    (fun k => ?_) (fun k => ?_)
  · have hk := contrEquiv1_symm_val D K hr hs k
    funext ax
    apply Fin.ext
    match ax with
    | ⟨0, _⟩ => exact hl0 _ _
    | ⟨1, _⟩ => exact (hl1 _ _).trans hk
  · have hk := contrEquiv1_symm_val D K hr hs k
    funext ax
    apply Fin.ext
    match ax with
    | ⟨0, _⟩ => exact hr0 _ _
    | ⟨1, _⟩ => exact (hr1 _ _).trans hk

/-- A 1 × n row, cast to its own shape and repeated down a rows, reads at (p, u) the row's entry u. -/
theorem biasRow_apply {α : Type} {n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![a, n]⟩)
    (p : Fin a) (u : Fin n) :
    broadcastTo ⟨2, ![a, n]⟩ (shapeCast ⟨2, ![1, n]⟩ v hc) hb (ix2 p u) = v (ix2 (0 : Fin 1) u) := by
  rw [shapeCast_self]
  refine broadcastTo_apply v hb (ix2 p u) (ix2 (0 : Fin 1) u) fun ax => ?_
  match ax with
  | ⟨0, _⟩ => rfl
  | ⟨1, _⟩ =>
    show u.val = if n = 1 then 0 else u.val
    split
    · have := u.isLt; omega
    · rfl

end Cert.RowsByRows

end
-- ==== Proof.Block.lean ====
/-
  What each kernel body computes from its loaded blocks, read at one entry, on the extended reals.

  The first body sees 1024 rows of the batch: from the blocks x, c, h of the three batch arrays, the four weight
  arrays and their bias rows it forms, at row p and unit u, the three gates' and the candidate's pre-activations —
  the joined row (c, h, x) or (h, x) against ROW u of a weight array, plus the bias entry u — and from them the
  next cell state and the next hidden state.  The second body sees 512 rows of hidden states and 3200 rows of the
  projection: its entry (p, v) is the inner product of the two rows plus the bias entry v.  Changes of float
  format are the identity on the extended reals, so the operands rounded to a shorter format are the operands.
-/
import proofs.«110501_j56401510531656_1_alg».proof.Proof.Gen.KernelIdeal.Skeleton
import proofs.«110501_j56401510531656_1_alg».proof.Proof.JoinRead
import proofs.«110501_j56401510531656_1_alg».proof.Proof.LibRowsByRows

noncomputable section

open scoped BigOperators

namespace Cert.KernelIdeal.BlockValue

open Idealize.ShloMosaic Idealize.ShloMosaic.ValueIdx Cert.KernelIdeal Cert.KernelIdeal.Gen Cert.LstmSpec

/-! ## Where the three products send an output entry and a contraction coordinate -/

theorem d768_l0 (j : S1024x256.Idx) (q : dot_S1024x768_S256x768_S1024x256_1_1_0_0_n_n.contr.Idx) : (dot_S1024x768_S256x768_S1024x256_1_1_0_0_n_n.lhsIdx j q 0).val = (j 0).val := by
  unfold DotDims.lhsIdx
  rw [dif_neg (show ¬(0 : Fin S1024x768.rank) ∈ dot_S1024x768_S256x768_S1024x256_1_1_0_0_n_n.lhsBatch by decide),
    dif_pos (show (0 : Fin S1024x768.rank) ∈ dot_S1024x768_S256x768_S1024x256_1_1_0_0_n_n.lhsNonContracting by decide)]
  rfl
theorem d768_l1 (j : S1024x256.Idx) (q : dot_S1024x768_S256x768_S1024x256_1_1_0_0_n_n.contr.Idx) : (dot_S1024x768_S256x768_S1024x256_1_1_0_0_n_n.lhsIdx j q 1).val = (q ⟨0, by decide⟩).val :=
  dot_S1024x768_S256x768_S1024x256_1_1_0_0_n_n.lhsIdx_val_of_single rfl j q
theorem d768_r0 (j : S1024x256.Idx) (q : dot_S1024x768_S256x768_S1024x256_1_1_0_0_n_n.contr.Idx) : (dot_S1024x768_S256x768_S1024x256_1_1_0_0_n_n.rhsIdx j q 0).val = (j 1).val := by
  unfold DotDims.rhsIdx
  rw [dif_neg (show ¬(0 : Fin S256x768.rank) ∈ dot_S1024x768_S256x768_S1024x256_1_1_0_0_n_n.rhsBatch by decide),
    dif_pos (show (0 : Fin S256x768.rank) ∈ dot_S1024x768_S256x768_S1024x256_1_1_0_0_n_n.rhsNonContracting by decide)]
  rfl
theorem d768_r1 (j : S1024x256.Idx) (q : dot_S1024x768_S256x768_S1024x256_1_1_0_0_n_n.contr.Idx) : (dot_S1024x768_S256x768_S1024x256_1_1_0_0_n_n.rhsIdx j q 1).val = (q ⟨0, by decide⟩).val :=
  dot_S1024x768_S256x768_S1024x256_1_1_0_0_n_n.rhsIdx_val_of_single rfl j q

theorem d512_l0 (j : S1024x256.Idx) (q : dot_S1024x512_S256x512_S1024x256_1_1_0_0_n_n.contr.Idx) : (dot_S1024x512_S256x512_S1024x256_1_1_0_0_n_n.lhsIdx j q 0).val = (j 0).val := by
  unfold DotDims.lhsIdx
  rw [dif_neg (show ¬(0 : Fin S1024x512.rank) ∈ dot_S1024x512_S256x512_S1024x256_1_1_0_0_n_n.lhsBatch by decide),
    dif_pos (show (0 : Fin S1024x512.rank) ∈ dot_S1024x512_S256x512_S1024x256_1_1_0_0_n_n.lhsNonContracting by decide)]
  rfl
theorem d512_l1 (j : S1024x256.Idx) (q : dot_S1024x512_S256x512_S1024x256_1_1_0_0_n_n.contr.Idx) : (dot_S1024x512_S256x512_S1024x256_1_1_0_0_n_n.lhsIdx j q 1).val = (q ⟨0, by decide⟩).val :=
  dot_S1024x512_S256x512_S1024x256_1_1_0_0_n_n.lhsIdx_val_of_single rfl j q
theorem d512_r0 (j : S1024x256.Idx) (q : dot_S1024x512_S256x512_S1024x256_1_1_0_0_n_n.contr.Idx) : (dot_S1024x512_S256x512_S1024x256_1_1_0_0_n_n.rhsIdx j q 0).val = (j 1).val := by
  unfold DotDims.rhsIdx
  rw [dif_neg (show ¬(0 : Fin S256x512.rank) ∈ dot_S1024x512_S256x512_S1024x256_1_1_0_0_n_n.rhsBatch by decide),
    dif_pos (show (0 : Fin S256x512.rank) ∈ dot_S1024x512_S256x512_S1024x256_1_1_0_0_n_n.rhsNonContracting by decide)]
  rfl
theorem d512_r1 (j : S1024x256.Idx) (q : dot_S1024x512_S256x512_S1024x256_1_1_0_0_n_n.contr.Idx) : (dot_S1024x512_S256x512_S1024x256_1_1_0_0_n_n.rhsIdx j q 1).val = (q ⟨0, by decide⟩).val :=
  dot_S1024x512_S256x512_S1024x256_1_1_0_0_n_n.rhsIdx_val_of_single rfl j q

theorem d256_l0 (j : S512x3200.Idx) (q : dot_S512x256_S3200x256_S512x3200_1_1_0_0_n_n.contr.Idx) : (dot_S512x256_S3200x256_S512x3200_1_1_0_0_n_n.lhsIdx j q 0).val = (j 0).val := by
  unfold DotDims.lhsIdx
  rw [dif_neg (show ¬(0 : Fin S512x256.rank) ∈ dot_S512x256_S3200x256_S512x3200_1_1_0_0_n_n.lhsBatch by decide),
    dif_pos (show (0 : Fin S512x256.rank) ∈ dot_S512x256_S3200x256_S512x3200_1_1_0_0_n_n.lhsNonContracting by decide)]
  rfl
theorem d256_l1 (j : S512x3200.Idx) (q : dot_S512x256_S3200x256_S512x3200_1_1_0_0_n_n.contr.Idx) : (dot_S512x256_S3200x256_S512x3200_1_1_0_0_n_n.lhsIdx j q 1).val = (q ⟨0, by decide⟩).val :=
  dot_S512x256_S3200x256_S512x3200_1_1_0_0_n_n.lhsIdx_val_of_single rfl j q
theorem d256_r0 (j : S512x3200.Idx) (q : dot_S512x256_S3200x256_S512x3200_1_1_0_0_n_n.contr.Idx) : (dot_S512x256_S3200x256_S512x3200_1_1_0_0_n_n.rhsIdx j q 0).val = (j 1).val := by
  unfold DotDims.rhsIdx
  rw [dif_neg (show ¬(0 : Fin S3200x256.rank) ∈ dot_S512x256_S3200x256_S512x3200_1_1_0_0_n_n.rhsBatch by decide),
    dif_pos (show (0 : Fin S3200x256.rank) ∈ dot_S512x256_S3200x256_S512x3200_1_1_0_0_n_n.rhsNonContracting by decide)]
  rfl
theorem d256_r1 (j : S512x3200.Idx) (q : dot_S512x256_S3200x256_S512x3200_1_1_0_0_n_n.contr.Idx) : (dot_S512x256_S3200x256_S512x3200_1_1_0_0_n_n.rhsIdx j q 1).val = (q ⟨0, by decide⟩).val :=
  dot_S512x256_S3200x256_S512x3200_1_1_0_0_n_n.rhsIdx_val_of_single rfl j q

/-! ## The first body -/

/-- A gate's pre-activation at (p, u): the joined row (c, h, x) of row p against row u of the weights, plus the
    bias entry u. -/
theorem gate_apply (v0 v1 v2 : Vec Ideal S1024x256 .f32) (w : Vec Ideal S256x768 .f32) (b : Vec Ideal S1x256 .f32)
    (p : Fin 1024) (u : Fin 256) :
    addf (matmul dot_S1024x768_S256x768_S1024x256_1_1_0_0_n_n none (k0_pay3 (F := Ideal) v0 v1 v2) (truncf .bf16 w bitsLt_bf16_f32)
        (constant (F := Ideal) S1024x256 .f32 0x00000000#32))
      (broadcastTo S1024x256 (shapeCast S1x256 b shapeCasts_S1x256_S1x256) broadcasts_S1x256_S1024x256) (ix2 p u)
      = affine (join3 (row v1 p) (row v2 p) (row v0 p)) (row w u) (b (ix2 (0 : Fin 1) u)) := by
  rw [addf_apply]
  unfold affine
  refine congrArg₂ (· + ·) ?_ ?_
  · refine (Cert.RowsByRows.matmul_rows_rows_apply dot_S1024x768_S256x768_S1024x256_1_1_0_0_n_n none rfl rfl d768_l0 d768_l1 d768_r0 d768_r1 _ _ p u).trans ?_
    refine Finset.sum_congr rfl fun k _ => ?_
    unfold k0_pay3
    rw [truncf_apply, truncf_apply, concat3_apply]
    rfl
  · exact Cert.RowsByRows.biasRow_apply b _ _ p u

/-- The candidate's pre-activation at (p, u): the joined row (h, x) against row u of its weights, plus the bias. -/
theorem cand_apply (v0 v2 : Vec Ideal S1024x256 .f32) (w : Vec Ideal S256x512 .f32) (b : Vec Ideal S1x256 .f32)
    (p : Fin 1024) (u : Fin 256) :
    addf (k0_pay4 (F := Ideal) v0 v2 w)
      (broadcastTo S1024x256 (shapeCast S1x256 b shapeCasts_S1x256_S1x256) broadcasts_S1x256_S1024x256) (ix2 p u)
      = affine (join2 (row v2 p) (row v0 p)) (row w u) (b (ix2 (0 : Fin 1) u)) := by
  rw [addf_apply]
  unfold affine
  refine congrArg₂ (· + ·) ?_ ?_
  · unfold k0_pay4
    refine (Cert.RowsByRows.matmul_rows_rows_apply dot_S1024x512_S256x512_S1024x256_1_1_0_0_n_n none rfl rfl d512_l0 d512_l1 d512_r0 d512_r1 _ _ p u).trans ?_
    refine Finset.sum_congr rfl fun k _ => ?_
    rw [truncf_apply, truncf_apply, concat2_apply]
    rfl
  · exact Cert.RowsByRows.biasRow_apply b _ _ p u

/-- The next cell state at (p, u), from the blocks. -/
theorem cell_apply (x0 x1 x2 : Vec Ideal S1024x256 .f32) (x3 : Vec Ideal S256x768 .f32) (x4 : Vec Ideal S1x256 .f32)
    (x5 : Vec Ideal S256x768 .f32) (x6 : Vec Ideal S1x256 .f32) (x9 : Vec Ideal S256x512 .f32) (x10 : Vec Ideal S1x256 .f32)
    (p : Fin 1024) (u : Fin 256) :
    k0_pay1 (F := Ideal) x1 (k0_pay4 x0 x2 x9) (k0_pay5 x0 x1 x2 x3 x4) (k0_pay6 x0 x1 x2 x5 x6) x10 (ix2 p u)
      = cellNext (affine (join3 (row x1 p) (row x2 p) (row x0 p)) (row x3 u) (x4 (ix2 (0 : Fin 1) u)))
          (affine (join3 (row x1 p) (row x2 p) (row x0 p)) (row x5 u) (x6 (ix2 (0 : Fin 1) u)))
          (affine (join2 (row x2 p) (row x0 p)) (row x9 u) (x10 (ix2 (0 : Fin 1) u)))
          (x1 (ix2 p u)) := by
  rw [← gate_apply x0 x1 x2 x3 x4 p u, ← gate_apply x0 x1 x2 x5 x6 p u, ← cand_apply x0 x2 x9 x10 p u]
  rfl

/-- The next hidden state at (p, u), from the blocks. -/
theorem hid_apply (x0 x1 x2 : Vec Ideal S1024x256 .f32) (x3 : Vec Ideal S256x768 .f32) (x4 : Vec Ideal S1x256 .f32)
    (x5 : Vec Ideal S256x768 .f32) (x6 : Vec Ideal S1x256 .f32) (x7 : Vec Ideal S256x768 .f32) (x8 : Vec Ideal S1x256 .f32)
    (x9 : Vec Ideal S256x512 .f32) (x10 : Vec Ideal S1x256 .f32) (p : Fin 1024) (u : Fin 256) :
    k0_pay2 (F := Ideal) x1 (k0_pay4 x0 x2 x9) (k0_pay5 x0 x1 x2 x3 x4) (k0_pay6 x0 x1 x2 x5 x6) (k0_pay7 x0 x1 x2 x7 x8) x10 (ix2 p u)
      = hidNext (affine (join3 (row x1 p) (row x2 p) (row x0 p)) (row x7 u) (x8 (ix2 (0 : Fin 1) u)))
          (cellNext (affine (join3 (row x1 p) (row x2 p) (row x0 p)) (row x3 u) (x4 (ix2 (0 : Fin 1) u)))
            (affine (join3 (row x1 p) (row x2 p) (row x0 p)) (row x5 u) (x6 (ix2 (0 : Fin 1) u)))
            (affine (join2 (row x2 p) (row x0 p)) (row x9 u) (x10 (ix2 (0 : Fin 1) u)))
            (x1 (ix2 p u))) := by
  rw [← cell_apply x0 x1 x2 x3 x4 x5 x6 x9 x10 p u, ← gate_apply x0 x1 x2 x7 x8 p u]
  rfl

/-! ## The second body -/

/-- A logit at (p, v): row p of the hidden states against row v of the projection, plus the bias entry v. -/
theorem logit_apply (v0 : Vec Ideal S512x256 .f32) (v3 : Vec Ideal S3200x256 .f32) (v6 : Vec Ideal S1x3200 .f32)
    (p : Fin 512) (v : Fin 3200) :
    k1_pay1 (F := Ideal) v0 v3 v6 (ix2 p v) = affine (row v0 p) (row v3 v) (v6 (ix2 (0 : Fin 1) v)) := by
  unfold k1_pay1
  rw [addf_apply]
  unfold affine
  refine congrArg₂ (· + ·) ?_ ?_
  · refine (Cert.RowsByRows.matmul_rows_rows_apply dot_S512x256_S3200x256_S512x3200_1_1_0_0_n_n none rfl rfl d256_l0 d256_l1 d256_r0 d256_r1 _ _ p v).trans ?_
    refine Finset.sum_congr rfl fun k _ => ?_
    rw [truncf_apply, truncf_apply, shapeCast_self]
    rfl
  · exact Cert.RowsByRows.biasRow_apply v6 _ _ p v

end Cert.KernelIdeal.BlockValue

end
-- ==== Proof.Region0.lean ====
/-
  The first region, from blocks to arrays, on the extended reals.  Its grid has 8 points; at point t the three
  batch windows and the two output windows hold rows 1024 t … 1024 t + 1023 of their arrays, and the eight weight
  and bias windows hold their whole arrays.  Every entry of a result depends on one row of the batch, so what
  point t writes back is exactly block t of the array of next cell states (next hidden states) of the arrays as
  the region finds them; the 8 blocks tile the 8192 rows, so each result array ends as that array.
-/
import proofs.«110501_j56401510531656_1_alg».proof.Proof.Gen.KernelIdeal.Frame
import proofs.«110501_j56401510531656_1_alg».proof.Proof.Block
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BlockValue Cert.LstmSpec

variable (V : (c : Dev nD) → (b : Ref sig .tc) → Buf (Elt Ideal) ((c : Thread nD τ).loc b))

theorem hz : (![0, 0] : Fin 2 → Nat) = fun _ => 0 := funext fun a => by fin_cases a <;> rfl

/-- The windows' block indices at every point of the grid, decided over its 8 points. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-! ## Each input block as entries of its array -/

/-- Window 0's block at point t is rows 1024 t … 1024 t + 1023 of its array. -/
theorem blk0_0_apply (c : Dev nD) (t : Fin cfg0.N) (y : S1024x256.Idx) (k : S8192x256.Idx)
    (hk0 : (k 0).val = 1024 * t.val + (y 0).val) (hk1 : (k 1).val = (y 1).val) :
    (iblk0 V c 0 t : Vec Ideal S1024x256 .f32) y = (V c main_arg0 : S8192x256.Idx → EReal) k := by
  obtain ⟨e0, e1, -, -, -, -, -, -, -, -, -, -, -, -, -, -, -, -, -, -, -, -, -, -, -, -⟩ := idx0 t
  unfold iblk0
  rw [View.read_apply]
  show V c main_arg0 _ = V c main_arg0 _
  refine congrArg (V c main_arg0) ?_
  funext a
  apply Fin.ext
  match a with
  | ⟨0, _⟩ => show win0_0.index t 0 * 1024 + 1 * (y 0).val = (k 0).val; omega
  | ⟨1, _⟩ => show win0_0.index t 1 * 256 + 1 * (y 1).val = (k 1).val; omega

/-- Window 1's block at point t is rows 1024 t … 1024 t + 1023 of its array. -/
theorem blk0_1_apply (c : Dev nD) (t : Fin cfg0.N) (y : S1024x256.Idx) (k : S8192x256.Idx)
    (hk0 : (k 0).val = 1024 * t.val + (y 0).val) (hk1 : (k 1).val = (y 1).val) :
    (iblk0 V c 1 t : Vec Ideal S1024x256 .f32) y = (V c main_arg1 : S8192x256.Idx → EReal) k := by
  obtain ⟨-, -, e0, e1, -, -, -, -, -, -, -, -, -, -, -, -, -, -, -, -, -, -, -, -, -, -⟩ := idx0 t
  unfold iblk0
  rw [View.read_apply]
  show V c main_arg1 _ = V c main_arg1 _
  refine congrArg (V c main_arg1) ?_
  funext a
  apply Fin.ext
  match a with
  | ⟨0, _⟩ => show win0_1.index t 0 * 1024 + 1 * (y 0).val = (k 0).val; omega
  | ⟨1, _⟩ => show win0_1.index t 1 * 256 + 1 * (y 1).val = (k 1).val; omega

/-- Window 2's block at point t is rows 1024 t … 1024 t + 1023 of its array. -/
theorem blk0_2_apply (c : Dev nD) (t : Fin cfg0.N) (y : S1024x256.Idx) (k : S8192x256.Idx)
    (hk0 : (k 0).val = 1024 * t.val + (y 0).val) (hk1 : (k 1).val = (y 1).val) :
    (iblk0 V c 2 t : Vec Ideal S1024x256 .f32) y = (V c main_arg2 : S8192x256.Idx → EReal) k := by
  obtain ⟨-, -, -, -, e0, e1, -, -, -, -, -, -, -, -, -, -, -, -, -, -, -, -, -, -, -, -⟩ := idx0 t
  unfold iblk0
  rw [View.read_apply]
  show V c main_arg2 _ = V c main_arg2 _
  refine congrArg (V c main_arg2) ?_
  funext a
  apply Fin.ext
  match a with
  | ⟨0, _⟩ => show win0_2.index t 0 * 1024 + 1 * (y 0).val = (k 0).val; omega
  | ⟨1, _⟩ => show win0_2.index t 1 * 256 + 1 * (y 1).val = (k 1).val; omega

/-- Window 3's block at every point is its whole array. -/
theorem blk0_3_apply (c : Dev nD) (t : Fin cfg0.N) (y : S256x768.Idx) :
    (iblk0 V c 3 t : Vec Ideal S256x768 .f32) y = (V c main_arg3 : S256x768.Idx → EReal) y := by
  obtain ⟨-, -, -, -, -, -, e0, e1, -, -, -, -, -, -, -, -, -, -, -, -, -, -, -, -, -, -⟩ := idx0 t
  unfold iblk0
  rw [View.read_apply]
  show V c main_arg3 _ = V c main_arg3 _
  refine congrArg (V c main_arg3) ?_
  funext a
  apply Fin.ext
  match a with
  | ⟨0, _⟩ => show win0_3.index t 0 * 256 + 1 * (y 0).val = (y 0).val; omega
  | ⟨1, _⟩ => show win0_3.index t 1 * 768 + 1 * (y 1).val = (y 1).val; omega

/-- Window 4's block at every point is its whole array. -/
theorem blk0_4_apply (c : Dev nD) (t : Fin cfg0.N) (y : S1x256.Idx) :
    (iblk0 V c 4 t : Vec Ideal S1x256 .f32) y = (V c main_v0 : S1x256.Idx → EReal) y := by
  obtain ⟨-, -, -, -, -, -, -, -, e0, e1, -, -, -, -, -, -, -, -, -, -, -, -, -, -, -, -⟩ := idx0 t
  unfold iblk0
  rw [View.read_apply]
  show V c main_v0 _ = V c main_v0 _
  refine congrArg (V c main_v0) ?_
  funext a
  apply Fin.ext
  match a with
  | ⟨0, _⟩ => show win0_4.index t 0 * 1 + 1 * (y 0).val = (y 0).val; omega
  | ⟨1, _⟩ => show win0_4.index t 1 * 256 + 1 * (y 1).val = (y 1).val; omega

/-- Window 5's block at every point is its whole array. -/
theorem blk0_5_apply (c : Dev nD) (t : Fin cfg0.N) (y : S256x768.Idx) :
    (iblk0 V c 5 t : Vec Ideal S256x768 .f32) y = (V c main_arg5 : S256x768.Idx → EReal) y := by
  obtain ⟨-, -, -, -, -, -, -, -, -, -, e0, e1, -, -, -, -, -, -, -, -, -, -, -, -, -, -⟩ := idx0 t
  unfold iblk0
  rw [View.read_apply]
  show V c main_arg5 _ = V c main_arg5 _
  refine congrArg (V c main_arg5) ?_
  funext a
  apply Fin.ext
  match a with
  | ⟨0, _⟩ => show win0_5.index t 0 * 256 + 1 * (y 0).val = (y 0).val; omega
  | ⟨1, _⟩ => show win0_5.index t 1 * 768 + 1 * (y 1).val = (y 1).val; omega

/-- Window 6's block at every point is its whole array. -/
theorem blk0_6_apply (c : Dev nD) (t : Fin cfg0.N) (y : S1x256.Idx) :
    (iblk0 V c 6 t : Vec Ideal S1x256 .f32) y = (V c main_v1 : S1x256.Idx → EReal) y := by
  obtain ⟨-, -, -, -, -, -, -, -, -, -, -, -, e0, e1, -, -, -, -, -, -, -, -, -, -, -, -⟩ := idx0 t
  unfold iblk0
  rw [View.read_apply]
  show V c main_v1 _ = V c main_v1 _
  refine congrArg (V c main_v1) ?_
  funext a
  apply Fin.ext
  match a with
  | ⟨0, _⟩ => show win0_6.index t 0 * 1 + 1 * (y 0).val = (y 0).val; omega
  | ⟨1, _⟩ => show win0_6.index t 1 * 256 + 1 * (y 1).val = (y 1).val; omega

/-- Window 7's block at every point is its whole array. -/
theorem blk0_7_apply (c : Dev nD) (t : Fin cfg0.N) (y : S256x768.Idx) :
    (iblk0 V c 7 t : Vec Ideal S256x768 .f32) y = (V c main_arg7 : S256x768.Idx → EReal) y := by
  obtain ⟨-, -, -, -, -, -, -, -, -, -, -, -, -, -, e0, e1, -, -, -, -, -, -, -, -, -, -⟩ := idx0 t
  unfold iblk0
  rw [View.read_apply]
  show V c main_arg7 _ = V c main_arg7 _
  refine congrArg (V c main_arg7) ?_
  funext a
  apply Fin.ext
  match a with
  | ⟨0, _⟩ => show win0_7.index t 0 * 256 + 1 * (y 0).val = (y 0).val; omega
  | ⟨1, _⟩ => show win0_7.index t 1 * 768 + 1 * (y 1).val = (y 1).val; omega

/-- Window 8's block at every point is its whole array. -/
theorem blk0_8_apply (c : Dev nD) (t : Fin cfg0.N) (y : S1x256.Idx) :
    (iblk0 V c 8 t : Vec Ideal S1x256 .f32) y = (V c main_v2 : S1x256.Idx → EReal) y := by
  obtain ⟨-, -, -, -, -, -, -, -, -, -, -, -, -, -, -, -, e0, e1, -, -, -, -, -, -, -, -⟩ := idx0 t
  unfold iblk0
  rw [View.read_apply]
  show V c main_v2 _ = V c main_v2 _
  refine congrArg (V c main_v2) ?_
  funext a
  apply Fin.ext
  match a with
  | ⟨0, _⟩ => show win0_8.index t 0 * 1 + 1 * (y 0).val = (y 0).val; omega
  | ⟨1, _⟩ => show win0_8.index t 1 * 256 + 1 * (y 1).val = (y 1).val; omega

/-- Window 9's block at every point is its whole array. -/
theorem blk0_9_apply (c : Dev nD) (t : Fin cfg0.N) (y : S256x512.Idx) :
    (iblk0 V c 9 t : Vec Ideal S256x512 .f32) y = (V c main_arg9 : S256x512.Idx → EReal) y := by
  obtain ⟨-, -, -, -, -, -, -, -, -, -, -, -, -, -, -, -, -, -, e0, e1, -, -, -, -, -, -⟩ := idx0 t
  unfold iblk0
  rw [View.read_apply]
  show V c main_arg9 _ = V c main_arg9 _
  refine congrArg (V c main_arg9) ?_
  funext a
  apply Fin.ext
  match a with
  | ⟨0, _⟩ => show win0_9.index t 0 * 256 + 1 * (y 0).val = (y 0).val; omega
  | ⟨1, _⟩ => show win0_9.index t 1 * 512 + 1 * (y 1).val = (y 1).val; omega

/-- Window 10's block at every point is its whole array. -/
theorem blk0_10_apply (c : Dev nD) (t : Fin cfg0.N) (y : S1x256.Idx) :
    (iblk0 V c 10 t : Vec Ideal S1x256 .f32) y = (V c main_v3 : S1x256.Idx → EReal) y := by
  obtain ⟨-, -, -, -, -, -, -, -, -, -, -, -, -, -, -, -, -, -, -, -, e0, e1, -, -, -, -⟩ := idx0 t
  unfold iblk0
  rw [View.read_apply]
  show V c main_v3 _ = V c main_v3 _
  refine congrArg (V c main_v3) ?_
  funext a
  apply Fin.ext
  match a with
  | ⟨0, _⟩ => show win0_10.index t 0 * 1 + 1 * (y 0).val = (y 0).val; omega
  | ⟨1, _⟩ => show win0_10.index t 1 * 256 + 1 * (y 1).val = (y 1).val; omega

/-! ## The two results as arrays of the region's entry contents -/

/-- The next cell states of the arrays as the region finds them; a bias is read off its 1 × 256 array. -/
def cellOf (c : Dev nD) : S8192x256.Idx → EReal :=
  cellArr (a := 8192) (V c main_arg0 : S8192x256.Idx → EReal) (V c main_arg1 : S8192x256.Idx → EReal) (V c main_arg2 : S8192x256.Idx → EReal)
    (V c main_arg3 : S256x768.Idx → EReal) (fun u => (V c main_v0 : S1x256.Idx → EReal) (ix2 (0 : Fin 1) u))
    (V c main_arg5 : S256x768.Idx → EReal) (fun u => (V c main_v1 : S1x256.Idx → EReal) (ix2 (0 : Fin 1) u))
    (V c main_arg9 : S256x512.Idx → EReal) (fun u => (V c main_v3 : S1x256.Idx → EReal) (ix2 (0 : Fin 1) u))

/-- The next hidden states of the arrays as the region finds them. -/
def hidOf (c : Dev nD) : S8192x256.Idx → EReal :=
  hidArr (a := 8192) (V c main_arg0 : S8192x256.Idx → EReal) (V c main_arg1 : S8192x256.Idx → EReal) (V c main_arg2 : S8192x256.Idx → EReal)
    (V c main_arg3 : S256x768.Idx → EReal) (fun u => (V c main_v0 : S1x256.Idx → EReal) (ix2 (0 : Fin 1) u))
    (V c main_arg5 : S256x768.Idx → EReal) (fun u => (V c main_v1 : S1x256.Idx → EReal) (ix2 (0 : Fin 1) u))
    (V c main_arg7 : S256x768.Idx → EReal) (fun u => (V c main_v2 : S1x256.Idx → EReal) (ix2 (0 : Fin 1) u))
    (V c main_arg9 : S256x512.Idx → EReal) (fun u => (V c main_v3 : S1x256.Idx → EReal) (ix2 (0 : Fin 1) u))

/-- The body's cell-state payload at entry y of point t's block is the array of next cell states at the entry
    1024 t rows further down. -/
theorem cell_block (c : Dev nD) (t : Fin cfg0.N) (y : S1024x256.Idx) (k : S8192x256.Idx)
    (hk0 : (k 0).val = 1024 * t.val + (y 0).val) (hk1 : (k 1).val = (y 1).val) :
    k0_pay1 (F := Ideal) (iblk0 V c 1 t) (k0_pay4 (iblk0 V c 0 t) (iblk0 V c 2 t) (iblk0 V c 9 t)) (k0_pay5 (iblk0 V c 0 t) (iblk0 V c 1 t) (iblk0 V c 2 t) (iblk0 V c 3 t) (iblk0 V c 4 t)) (k0_pay6 (iblk0 V c 0 t) (iblk0 V c 1 t) (iblk0 V c 2 t) (iblk0 V c 5 t) (iblk0 V c 6 t)) (iblk0 V c 10 t) y = cellOf V c k := by
  obtain ⟨p, u, rfl⟩ : ∃ (p : Fin 1024) (u : Fin 256), y = ix2 p u := ⟨y 0, y 1, eq_ix2 y⟩
  obtain ⟨P, U, rfl⟩ : ∃ (P : Fin 8192) (U : Fin 256), k = ix2 P U := ⟨k 0, k 1, eq_ix2 k⟩
  have hU : u = U := (Fin.ext hk1).symm
  subst hU
  refine (cell_apply (iblk0 V c 0 t) (iblk0 V c 1 t) (iblk0 V c 2 t) (iblk0 V c 3 t) (iblk0 V c 4 t) (iblk0 V c 5 t) (iblk0 V c 6 t) (iblk0 V c 9 t) (iblk0 V c 10 t) p u).trans ?_
  have r0 : row (iblk0 V c 0 t) p = row (V c main_arg0 : S8192x256.Idx → EReal) P := funext fun q => blk0_0_apply V c t (ix2 p q) (ix2 P q) hk0 rfl
  have r1 : row (iblk0 V c 1 t) p = row (V c main_arg1 : S8192x256.Idx → EReal) P := funext fun q => blk0_1_apply V c t (ix2 p q) (ix2 P q) hk0 rfl
  have r2 : row (iblk0 V c 2 t) p = row (V c main_arg2 : S8192x256.Idx → EReal) P := funext fun q => blk0_2_apply V c t (ix2 p q) (ix2 P q) hk0 rfl
  have w3 : row (iblk0 V c 3 t) u = row (V c main_arg3 : S256x768.Idx → EReal) u := funext fun q => blk0_3_apply V c t (ix2 u q)
  have w5 : row (iblk0 V c 5 t) u = row (V c main_arg5 : S256x768.Idx → EReal) u := funext fun q => blk0_5_apply V c t (ix2 u q)
  have w9 : row (iblk0 V c 9 t) u = row (V c main_arg9 : S256x512.Idx → EReal) u := funext fun q => blk0_9_apply V c t (ix2 u q)
  have b4 : (iblk0 V c 4 t) (ix2 (0 : Fin 1) u) = (V c main_v0 : S1x256.Idx → EReal) (ix2 (0 : Fin 1) u) := blk0_4_apply V c t _
  have b6 : (iblk0 V c 6 t) (ix2 (0 : Fin 1) u) = (V c main_v1 : S1x256.Idx → EReal) (ix2 (0 : Fin 1) u) := blk0_6_apply V c t _
  have b10 : (iblk0 V c 10 t) (ix2 (0 : Fin 1) u) = (V c main_v3 : S1x256.Idx → EReal) (ix2 (0 : Fin 1) u) := blk0_10_apply V c t _
  have c1 : (iblk0 V c 1 t) (ix2 p u) = (V c main_arg1 : S8192x256.Idx → EReal) (ix2 P u) := blk0_1_apply V c t _ _ hk0 rfl
  rw [r0, r1, r2, w3, w5, w9, b4, b6, b10, c1]
  rfl

/-- The same for the hidden-state payload. -/
theorem hid_block (c : Dev nD) (t : Fin cfg0.N) (y : S1024x256.Idx) (k : S8192x256.Idx)
    (hk0 : (k 0).val = 1024 * t.val + (y 0).val) (hk1 : (k 1).val = (y 1).val) :
    k0_pay2 (F := Ideal) (iblk0 V c 1 t) (k0_pay4 (iblk0 V c 0 t) (iblk0 V c 2 t) (iblk0 V c 9 t)) (k0_pay5 (iblk0 V c 0 t) (iblk0 V c 1 t) (iblk0 V c 2 t) (iblk0 V c 3 t) (iblk0 V c 4 t)) (k0_pay6 (iblk0 V c 0 t) (iblk0 V c 1 t) (iblk0 V c 2 t) (iblk0 V c 5 t) (iblk0 V c 6 t)) (k0_pay7 (iblk0 V c 0 t) (iblk0 V c 1 t) (iblk0 V c 2 t) (iblk0 V c 7 t) (iblk0 V c 8 t)) (iblk0 V c 10 t) y = hidOf V c k := by
  obtain ⟨p, u, rfl⟩ : ∃ (p : Fin 1024) (u : Fin 256), y = ix2 p u := ⟨y 0, y 1, eq_ix2 y⟩
  obtain ⟨P, U, rfl⟩ : ∃ (P : Fin 8192) (U : Fin 256), k = ix2 P U := ⟨k 0, k 1, eq_ix2 k⟩
  have hU : u = U := (Fin.ext hk1).symm
  subst hU
  refine (hid_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p u).trans ?_
  have r0 : row (iblk0 V c 0 t) p = row (V c main_arg0 : S8192x256.Idx → EReal) P := funext fun q => blk0_0_apply V c t (ix2 p q) (ix2 P q) hk0 rfl
  have r1 : row (iblk0 V c 1 t) p = row (V c main_arg1 : S8192x256.Idx → EReal) P := funext fun q => blk0_1_apply V c t (ix2 p q) (ix2 P q) hk0 rfl
  have r2 : row (iblk0 V c 2 t) p = row (V c main_arg2 : S8192x256.Idx → EReal) P := funext fun q => blk0_2_apply V c t (ix2 p q) (ix2 P q) hk0 rfl
  have w3 : row (iblk0 V c 3 t) u = row (V c main_arg3 : S256x768.Idx → EReal) u := funext fun q => blk0_3_apply V c t (ix2 u q)
  have w5 : row (iblk0 V c 5 t) u = row (V c main_arg5 : S256x768.Idx → EReal) u := funext fun q => blk0_5_apply V c t (ix2 u q)
  have w7 : row (iblk0 V c 7 t) u = row (V c main_arg7 : S256x768.Idx → EReal) u := funext fun q => blk0_7_apply V c t (ix2 u q)
  have w9 : row (iblk0 V c 9 t) u = row (V c main_arg9 : S256x512.Idx → EReal) u := funext fun q => blk0_9_apply V c t (ix2 u q)
  have b4 : (iblk0 V c 4 t) (ix2 (0 : Fin 1) u) = (V c main_v0 : S1x256.Idx → EReal) (ix2 (0 : Fin 1) u) := blk0_4_apply V c t _
  have b6 : (iblk0 V c 6 t) (ix2 (0 : Fin 1) u) = (V c main_v1 : S1x256.Idx → EReal) (ix2 (0 : Fin 1) u) := blk0_6_apply V c t _
  have b8 : (iblk0 V c 8 t) (ix2 (0 : Fin 1) u) = (V c main_v2 : S1x256.Idx → EReal) (ix2 (0 : Fin 1) u) := blk0_8_apply V c t _
  have b10 : (iblk0 V c 10 t) (ix2 (0 : Fin 1) u) = (V c main_v3 : S1x256.Idx → EReal) (ix2 (0 : Fin 1) u) := blk0_10_apply V c t _
  have c1 : (iblk0 V c 1 t) (ix2 p u) = (V c main_arg1 : S8192x256.Idx → EReal) (ix2 P u) := blk0_1_apply V c t _ _ hk0 rfl
  rw [r0, r1, r2, w3, w5, w7, w9, b4, b6, b8, b10, c1]
  rfl

/-! ## What a point writes back, and the arrays after the region -/

/-- An index of an output array is in point t's block iff its row is among rows 1024 t … 1024 t + 1023. -/
theorem mem_blk11 (t : Fin cfg0.N) (i : S8192x256.Idx) :
    i ∈ ((cfg0.win 11).blk t).view.set ↔ ∀ a : Fin 2, win0_11.index t a * S1024x256.size a ≤ (i a).val ∧ (i a).val < win0_11.index t a * S1024x256.size a + S1024x256.size a := by
  show i ∈ ((View.whole main_v5_0).slice (win0_11.rect t)).set ↔ _
  rw [View.set_slice_whole, Rect.mem_set_unit]
  exact Iff.rfl

theorem mem_blk12 (t : Fin cfg0.N) (i : S8192x256.Idx) :
    i ∈ ((cfg0.win 12).blk t).view.set ↔ ∀ a : Fin 2, win0_12.index t a * S1024x256.size a ≤ (i a).val ∧ (i a).val < win0_12.index t a * S1024x256.size a + S1024x256.size a := by
  show i ∈ ((View.whole main_v5_1).slice (win0_12.rect t)).set ↔ _
  rw [View.set_slice_whole, Rect.mem_set_unit]
  exact Iff.rfl

/-- Point t writes back block t of the array of next cell states. -/
theorem flushed11_eq (c : Dev nD) (t : Fin cfg0.N) :
    (dat0 V c).flushed 11 t = ((cfg0.win 11).blk t).view.read (Elt Ideal) (cellOf V c) := by
  show (cfg0.win 11).cut (grid0.coords t) ((dat0 V c).after 11 t) = _
  rw [after0_11]
  unfold out0_11
  rw [View.canon_unit_zero hz]
  simp only [View.ld_unit_zero (S := S1024x256) hz, View.ld_unit_zero (S := S256x768) hz, View.ld_unit_zero (S := S256x512) hz,
    View.ld_unit_zero (S := S1x256) hz]
  obtain ⟨-, -, -, -, -, -, -, -, -, -, -, -, -, -, -, -, -, -, -, -, -, -, e0, e1, -, -⟩ := idx0 t
  funext j
  refine cell_block V c t j _ ?_ ?_
  · show win0_11.index t 0 * 1024 + 1 * (j 0).val = 1024 * t.val + (j 0).val; omega
  · show win0_11.index t 1 * 256 + 1 * (j 1).val = (j 1).val; omega

/-- Point t writes back block t of the array of next hidden states. -/
theorem flushed12_eq (c : Dev nD) (t : Fin cfg0.N) :
    (dat0 V c).flushed 12 t = ((cfg0.win 12).blk t).view.read (Elt Ideal) (hidOf V c) := by
  show (cfg0.win 12).cut (grid0.coords t) ((dat0 V c).after 12 t) = _
  rw [after0_12]
  unfold out0_12
  rw [View.canon_unit_zero hz]
  simp only [View.ld_unit_zero (S := S1024x256) hz, View.ld_unit_zero (S := S256x768) hz, View.ld_unit_zero (S := S256x512) hz,
    View.ld_unit_zero (S := S1x256) hz]
  obtain ⟨-, -, -, -, -, -, -, -, -, -, -, -, -, -, -, -, -, -, -, -, -, -, -, -, e0, e1⟩ := idx0 t
  funext j
  refine hid_block V c t j _ ?_ ?_
  · show win0_12.index t 0 * 1024 + 1 * (j 0).val = 1024 * t.val + (j 0).val; omega
  · show win0_12.index t 1 * 256 + 1 * (j 1).val = (j 1).val; omega

/-- Row r of an output array lies in the block of point r / 1024. -/
theorem cover11 (i : S8192x256.Idx) : ∃ t : Fin cfg0.N, (cfg0.win 11).flush t = true ∧ i ∈ ((cfg0.win 11).blk t).view.set := by
  have hN : grid0.N = 8 := N_0
  have h0 : (i 0).val < 8192 := (i 0).isLt
  have h1 : (i 1).val < 256 := (i 1).isLt
  refine ⟨⟨(i 0).val / 1024, by show _ < grid0.N; omega⟩, flush0_11 _, ?_⟩
  rw [mem_blk11]
  obtain ⟨-, -, -, -, -, -, -, -, -, -, -, -, -, -, -, -, -, -, -, -, -, -, e0, e1, -, -⟩ := idx0 ⟨(i 0).val / 1024, by show _ < grid0.N; omega⟩
  intro a
  match a with
  | ⟨0, _⟩ => show win0_11.index _ (0 : Fin 2) * 1024 ≤ (i 0).val ∧ (i 0).val < win0_11.index _ (0 : Fin 2) * 1024 + 1024; rw [e0]; show (i 0).val / 1024 * 1024 ≤ _ ∧ _ < (i 0).val / 1024 * 1024 + 1024; omega
  | ⟨1, _⟩ => show win0_11.index _ (1 : Fin 2) * 256 ≤ (i 1).val ∧ (i 1).val < win0_11.index _ (1 : Fin 2) * 256 + 256; rw [e1]; omega

theorem cover12 (i : S8192x256.Idx) : ∃ t : Fin cfg0.N, (cfg0.win 12).flush t = true ∧ i ∈ ((cfg0.win 12).blk t).view.set := by
  have hN : grid0.N = 8 := N_0
  have h0 : (i 0).val < 8192 := (i 0).isLt
  have h1 : (i 1).val < 256 := (i 1).isLt
  refine ⟨⟨(i 0).val / 1024, by show _ < grid0.N; omega⟩, flush0_12 _, ?_⟩
  rw [mem_blk12]
  obtain ⟨-, -, -, -, -, -, -, -, -, -, -, -, -, -, -, -, -, -, -, -, -, -, -, -, e0, e1⟩ := idx0 ⟨(i 0).val / 1024, by show _ < grid0.N; omega⟩
  intro a
  match a with
  | ⟨0, _⟩ => show win0_12.index _ (0 : Fin 2) * 1024 ≤ (i 0).val ∧ (i 0).val < win0_12.index _ (0 : Fin 2) * 1024 + 1024; rw [e0]; show (i 0).val / 1024 * 1024 ≤ _ ∧ _ < (i 0).val / 1024 * 1024 + 1024; omega
  | ⟨1, _⟩ => show win0_12.index _ (1 : Fin 2) * 256 ≤ (i 1).val ∧ (i 1).val < win0_12.index _ (1 : Fin 2) * 256 + 256; rw [e1]; omega

/-- After the region the first result array holds the next cell states of the arrays as the region found them. -/
theorem final11 (c : Dev nD) : (dat0 V c).arrAt 11 cfg0.N = cellOf V c :=
  (dat0 V c).arrAt_eq_of_cover 11 (cellOf V c) (fun t _ => flushed11_eq V c t) cover11

/-- After the region the second result array holds the next hidden states. -/
theorem final12 (c : Dev nD) : (dat0 V c).arrAt 12 cfg0.N = hidOf V c :=
  (dat0 V c).arrAt_eq_of_cover 12 (hidOf V c) (fun t _ => flushed12_eq V c t) cover12

end Cert.KernelIdeal.RegionValue

end
-- ==== Proof.Region1.lean ====
/-
  The second region, from blocks to the array of logits, on the extended reals.  Its grid has 10 × 16 points,
  the vocabulary tile outermost: at point t = 16 j + i the hidden-state window holds rows 512 i … 512 i + 511, the
  projection window rows 3200 j … 3200 j + 3199, the bias window columns 3200 j … 3200 j + 3199 of its 1 × 32000
  array, and the output window the 512 × 3200 tile (i, j).  A logit depends on one row of the hidden states and one
  row of the projection, so what point t writes back is tile (i, j) of the array of logits of the arrays as the
  region finds them; the 160 tiles cover the 8192 × 32000 array.
-/
import proofs.«110501_j56401510531656_1_alg».proof.Proof.Gen.KernelIdeal.Frame
import proofs.«110501_j56401510531656_1_alg».proof.Proof.Block
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BlockValue Cert.LstmSpec

variable (V : (c : Dev nD) → (b : Ref sig .tc) → Buf (Elt Ideal) ((c : Thread nD τ).loc b))

theorem hz1 : (![0, 0] : Fin 2 → Nat) = fun _ => 0 := funext fun a => by fin_cases a <;> rfl

/-- The windows' block indices at every point of the grid, decided over its 160 points. -/
theorem idx1 : ∀ t : Fin cfg1.N,
    win1_0.index t (0 : Fin 2) = t.val % 16 ∧ win1_0.index t (1 : Fin 2) = 0
    ∧ win1_1.index t (0 : Fin 2) = t.val / 16 ∧ win1_1.index t (1 : Fin 2) = 0
    ∧ win1_2.index t (0 : Fin 2) = 0 ∧ win1_2.index t (1 : Fin 2) = t.val / 16
    ∧ win1_3.index t (0 : Fin 2) = t.val % 16 ∧ win1_3.index t (1 : Fin 2) = t.val / 16 :=
  (by decide +kernel : ∀ t : Fin grid1.N, _)

/-! ## Each input block as entries of its array -/

/-- The hidden-state window's block at point t is rows 512 (t mod 16) … of its array. -/
theorem blk1_0_apply (c : Dev nD) (t : Fin cfg1.N) (y : S512x256.Idx) (k : S8192x256.Idx)
    (hk0 : (k 0).val = 512 * (t.val % 16) + (y 0).val) (hk1 : (k 1).val = (y 1).val) :
    (iblk1 V c 0 t : Vec Ideal S512x256 .f32) y = (V c main_v5_1 : S8192x256.Idx → EReal) k := by
  obtain ⟨e0, e1, -, -, -, -, -, -⟩ := idx1 t
  unfold iblk1
  rw [View.read_apply]
  show V c main_v5_1 _ = V c main_v5_1 _
  refine congrArg (V c main_v5_1) ?_
  funext a
  apply Fin.ext
  match a with
  | ⟨0, _⟩ => show win1_0.index t 0 * 512 + 1 * (y 0).val = (k 0).val; omega
  | ⟨1, _⟩ => show win1_0.index t 1 * 256 + 1 * (y 1).val = (k 1).val; omega

/-- The projection window's block at point t is rows 3200 (t / 16) … of its array. -/
theorem blk1_1_apply (c : Dev nD) (t : Fin cfg1.N) (y : S3200x256.Idx) (k : S32000x256.Idx)
    (hk0 : (k 0).val = 3200 * (t.val / 16) + (y 0).val) (hk1 : (k 1).val = (y 1).val) :
    (iblk1 V c 1 t : Vec Ideal S3200x256 .f32) y = (V c main_arg11 : S32000x256.Idx → EReal) k := by
  obtain ⟨-, -, e0, e1, -, -, -, -⟩ := idx1 t
  unfold iblk1
  rw [View.read_apply]
  show V c main_arg11 _ = V c main_arg11 _
  refine congrArg (V c main_arg11) ?_
  funext a
  apply Fin.ext
  match a with
  | ⟨0, _⟩ => show win1_1.index t 0 * 3200 + 1 * (y 0).val = (k 0).val; omega
  | ⟨1, _⟩ => show win1_1.index t 1 * 256 + 1 * (y 1).val = (k 1).val; omega

/-- The bias window's block at point t is columns 3200 (t / 16) … of its one-row array. -/
theorem blk1_2_apply (c : Dev nD) (t : Fin cfg1.N) (y : S1x3200.Idx) (k : S1x32000.Idx)
    (hk0 : (k 0).val = (y 0).val) (hk1 : (k 1).val = 3200 * (t.val / 16) + (y 1).val) :
    (iblk1 V c 2 t : Vec Ideal S1x3200 .f32) y = (V c main_v4 : S1x32000.Idx → EReal) k := by
  obtain ⟨-, -, -, -, e0, e1, -, -⟩ := idx1 t
  unfold iblk1
  rw [View.read_apply]
  show V c main_v4 _ = V c main_v4 _
  refine congrArg (V c main_v4) ?_
  funext a
  apply Fin.ext
  match a with
  | ⟨0, _⟩ => show win1_2.index t 0 * 1 + 1 * (y 0).val = (k 0).val; omega
  | ⟨1, _⟩ => show win1_2.index t 1 * 3200 + 1 * (y 1).val = (k 1).val; omega

/-! ## The result as an array of the region's entry contents -/

/-- The logits of the arrays as the region finds them; the bias is read off its 1 × 32000 array. -/
def logitOf (c : Dev nD) : S8192x32000.Idx → EReal :=
  logitArr (a := 8192) (n := 32000) (V c main_v5_1 : S8192x256.Idx → EReal) (V c main_arg11 : S32000x256.Idx → EReal)
    (fun v => (V c main_v4 : S1x32000.Idx → EReal) (ix2 (0 : Fin 1) v))

/-- The body's payload at entry y of point t's tile is the array of logits at the entry 512 (t mod 16) rows down
    and 3200 (t / 16) columns across. -/
theorem logit_block (c : Dev nD) (t : Fin cfg1.N) (y : S512x3200.Idx) (k : S8192x32000.Idx)
    (hk0 : (k 0).val = 512 * (t.val % 16) + (y 0).val) (hk1 : (k 1).val = 3200 * (t.val / 16) + (y 1).val) :
    k1_pay1 (F := Ideal) (iblk1 V c 0 t) (iblk1 V c 1 t) (iblk1 V c 2 t) y = logitOf V c k := by
  obtain ⟨p, v, rfl⟩ : ∃ (p : Fin 512) (v : Fin 3200), y = ix2 p v := ⟨y 0, y 1, eq_ix2 y⟩
  obtain ⟨P, U, rfl⟩ : ∃ (P : Fin 8192) (U : Fin 32000), k = ix2 P U := ⟨k 0, k 1, eq_ix2 k⟩
  refine (logit_apply (iblk1 V c 0 t) (iblk1 V c 1 t) (iblk1 V c 2 t) p v).trans ?_
  have r0 : row (iblk1 V c 0 t) p = row (V c main_v5_1 : S8192x256.Idx → EReal) P := funext fun q => blk1_0_apply V c t (ix2 p q) (ix2 P q) hk0 rfl
  have r1 : row (iblk1 V c 1 t) v = row (V c main_arg11 : S32000x256.Idx → EReal) U := funext fun q => blk1_1_apply V c t (ix2 v q) (ix2 U q) hk1 rfl
  have b2 : (iblk1 V c 2 t) (ix2 (0 : Fin 1) v) = (V c main_v4 : S1x32000.Idx → EReal) (ix2 (0 : Fin 1) U) := blk1_2_apply V c t _ _ rfl hk1
  rw [r0, r1, b2]
  rfl

/-! ## What a point writes back, and the array after the region -/

/-- An index of the output array is in point t's tile iff each coordinate is in the tile's range on its axis. -/
theorem mem_blk3 (t : Fin cfg1.N) (i : S8192x32000.Idx) :
    i ∈ ((cfg1.win 3).blk t).view.set ↔ ∀ a : Fin 2, win1_3.index t a * S512x3200.size a ≤ (i a).val ∧ (i a).val < win1_3.index t a * S512x3200.size a + S512x3200.size a := by
  show i ∈ ((View.whole main_v6).slice (win1_3.rect t)).set ↔ _
  rw [View.set_slice_whole, Rect.mem_set_unit]
  exact Iff.rfl

/-- Point t writes back its tile of the array of logits. -/
theorem flushed3_eq (c : Dev nD) (t : Fin cfg1.N) :
    (dat1 V c).flushed 3 t = ((cfg1.win 3).blk t).view.read (Elt Ideal) (logitOf V c) := by
  show (cfg1.win 3).cut (grid1.coords t) ((dat1 V c).after 3 t) = _
  rw [after1_3]
  unfold out1_3
  rw [View.canon_unit_zero hz1]
  simp only [View.ld_unit_zero (S := S512x256) hz1, View.ld_unit_zero (S := S3200x256) hz1, View.ld_unit_zero (S := S1x3200) hz1]
  obtain ⟨-, -, -, -, -, -, e0, e1⟩ := idx1 t
  funext j
  refine logit_block V c t j _ ?_ ?_
  · show win1_3.index t 0 * 512 + 1 * (j 0).val = 512 * (t.val % 16) + (j 0).val; omega
  · show win1_3.index t 1 * 3200 + 1 * (j 1).val = 3200 * (t.val / 16) + (j 1).val; omega

/-- Entry (r, s) of the output array lies in the tile of the point 16 (s / 3200) + r / 512. -/
theorem cover3 (i : S8192x32000.Idx) : ∃ t : Fin cfg1.N, (cfg1.win 3).flush t = true ∧ i ∈ ((cfg1.win 3).blk t).view.set := by
  have hN : grid1.N = 160 := N_1
  have h0 : (i 0).val < 8192 := (i 0).isLt
  have h1 : (i 1).val < 32000 := (i 1).isLt
  have ht : (i 1).val / 3200 * 16 + (i 0).val / 512 < grid1.N := by omega
  refine ⟨⟨(i 1).val / 3200 * 16 + (i 0).val / 512, ht⟩, flush1_3 _, ?_⟩
  rw [mem_blk3]
  obtain ⟨-, -, -, -, -, -, e0, e1⟩ := idx1 ⟨(i 1).val / 3200 * 16 + (i 0).val / 512, ht⟩
  intro a
  match a with
  | ⟨0, _⟩ =>
    show win1_3.index _ (0 : Fin 2) * 512 ≤ (i 0).val ∧ (i 0).val < win1_3.index _ (0 : Fin 2) * 512 + 512
    rw [e0]
    show ((i 1).val / 3200 * 16 + (i 0).val / 512) % 16 * 512 ≤ _ ∧ _ < ((i 1).val / 3200 * 16 + (i 0).val / 512) % 16 * 512 + 512
    omega
  | ⟨1, _⟩ =>
    show win1_3.index _ (1 : Fin 2) * 3200 ≤ (i 1).val ∧ (i 1).val < win1_3.index _ (1 : Fin 2) * 3200 + 3200
    rw [e1]
    show ((i 1).val / 3200 * 16 + (i 0).val / 512) / 16 * 3200 ≤ _ ∧ _ < ((i 1).val / 3200 * 16 + (i 0).val / 512) / 16 * 3200 + 3200
    omega

/-- After the region the output array holds the logits of the arrays as the region found them. -/
theorem final3 (c : Dev nD) : (dat1 V c).arrAt 3 cfg1.N = logitOf V c :=
  (dat1 V c).arrAt_eq_of_cover 3 (logitOf V c) (fun t _ => flushed3_eq V c t) cover3

end Cert.KernelIdeal.RegionValue

end
-- ==== Proof.KValue.lean ====
/-
  The kernel's three results as functions of its thirteen arguments, on the extended reals.  Walking the fold of
  boundary contents back to the launch memory: the host stretch only reshapes each bias of n numbers into a 1 × n
  row, whose entry (0, u) is the bias entry u, and writes no argument; the first region leaves the next cell states
  and the next hidden states of the arrays it found; the second region only reads the hidden states and leaves their
  logits.  So after the run the results are the specification's three arrays of the launch contents of the arguments.
-/
import proofs.«110501_j56401510531656_1_alg».proof.Proof.KRun
import proofs.«110501_j56401510531656_1_alg».proof.Proof.Region0
import proofs.«110501_j56401510531656_1_alg».proof.Proof.Region1
import Idealize.ShloMosaic.Lib.StableHlo.Run

set_option maxRecDepth 16384

noncomputable section

namespace Cert.KernelIdeal.Results

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.RegionValue Cert.KernelIdeal.RunValue Cert.LstmSpec

variable (m : (ℓ : Loc nD τ sig) → Buf (Elt Ideal) ℓ) (ρ : Dev nD → PrngReg)

/-- n numbers kept as a 1 × n row: the row's entry (0, u) is entry u. -/
theorem row_entry {α : Type} {n : ℕ} (b : (⟨1, ![n]⟩ : Shape).Idx → α) (h : (⟨1, ![n]⟩ : Shape).ShapeCasts ⟨2, ![1, n]⟩) (u : Fin n) :
    shapeCast ⟨2, ![1, n]⟩ b h (ix2 (0 : Fin 1) u) = b (ix1 u) :=
  shapeCast_apply b h _ _ (by
    rw [Shape.rowMajor_val_one, Shape.rowMajor_val_two]
    show u.val = 0 * n + u.val
    omega)

/-! ## The arrays the first region finds -/

theorem entry_arg0 (c : Dev nD) : V1 m ρ c main_arg0 = m ((c : Thread nD τ).loc main_arg0) :=
  ((W2_arr m ρ c 0).trans (((dat0 (V1 m ρ) c).arrAt_in 0 rfl _).trans (A_eq0 (V1 m ρ) c 0))).symm.trans
    ((W3_of_ne m ρ c main_arg0 (by decide)).symm.trans (W3_main_arg0 m ρ c))
theorem entry_arg1 (c : Dev nD) : V1 m ρ c main_arg1 = m ((c : Thread nD τ).loc main_arg1) :=
  ((W2_arr m ρ c 1).trans (((dat0 (V1 m ρ) c).arrAt_in 1 rfl _).trans (A_eq0 (V1 m ρ) c 1))).symm.trans
    ((W3_of_ne m ρ c main_arg1 (by decide)).symm.trans (W3_main_arg1 m ρ c))
theorem entry_arg2 (c : Dev nD) : V1 m ρ c main_arg2 = m ((c : Thread nD τ).loc main_arg2) :=
  ((W2_arr m ρ c 2).trans (((dat0 (V1 m ρ) c).arrAt_in 2 rfl _).trans (A_eq0 (V1 m ρ) c 2))).symm.trans
    ((W3_of_ne m ρ c main_arg2 (by decide)).symm.trans (W3_main_arg2 m ρ c))
theorem entry_arg3 (c : Dev nD) : V1 m ρ c main_arg3 = m ((c : Thread nD τ).loc main_arg3) :=
  ((W2_arr m ρ c 3).trans (((dat0 (V1 m ρ) c).arrAt_in 3 rfl _).trans (A_eq0 (V1 m ρ) c 3))).symm.trans
    ((W3_of_ne m ρ c main_arg3 (by decide)).symm.trans (W3_main_arg3 m ρ c))
theorem entry_arg5 (c : Dev nD) : V1 m ρ c main_arg5 = m ((c : Thread nD τ).loc main_arg5) :=
  ((W2_arr m ρ c 5).trans (((dat0 (V1 m ρ) c).arrAt_in 5 rfl _).trans (A_eq0 (V1 m ρ) c 5))).symm.trans
    ((W3_of_ne m ρ c main_arg5 (by decide)).symm.trans (W3_main_arg5 m ρ c))
theorem entry_arg7 (c : Dev nD) : V1 m ρ c main_arg7 = m ((c : Thread nD τ).loc main_arg7) :=
  ((W2_arr m ρ c 7).trans (((dat0 (V1 m ρ) c).arrAt_in 7 rfl _).trans (A_eq0 (V1 m ρ) c 7))).symm.trans
    ((W3_of_ne m ρ c main_arg7 (by decide)).symm.trans (W3_main_arg7 m ρ c))
theorem entry_arg9 (c : Dev nD) : V1 m ρ c main_arg9 = m ((c : Thread nD τ).loc main_arg9) :=
  ((W2_arr m ρ c 9).trans (((dat0 (V1 m ρ) c).arrAt_in 9 rfl _).trans (A_eq0 (V1 m ρ) c 9))).symm.trans
    ((W3_of_ne m ρ c main_arg9 (by decide)).symm.trans (W3_main_arg9 m ρ c))

theorem entry_v0 (c : Dev nD) :
    (W1 m ρ c (Proc.devRef .tc main_v0) : S1x256.Idx → EReal) = shapeCast S1x256 ((m ((c : Thread nD τ).loc main_arg4)) : S256.Idx → EReal) shapeCasts_S256_S1x256 := by
  show StableHlo.after hostOps0 (W0 m ρ c) (Proc.devRef .tc main_v0) = _
  after_results
  rfl
theorem entry_v1 (c : Dev nD) :
    (W1 m ρ c (Proc.devRef .tc main_v1) : S1x256.Idx → EReal) = shapeCast S1x256 ((m ((c : Thread nD τ).loc main_arg6)) : S256.Idx → EReal) shapeCasts_S256_S1x256 := by
  show StableHlo.after hostOps0 (W0 m ρ c) (Proc.devRef .tc main_v1) = _
  after_results
  rfl
theorem entry_v2 (c : Dev nD) :
    (W1 m ρ c (Proc.devRef .tc main_v2) : S1x256.Idx → EReal) = shapeCast S1x256 ((m ((c : Thread nD τ).loc main_arg8)) : S256.Idx → EReal) shapeCasts_S256_S1x256 := by
  show StableHlo.after hostOps0 (W0 m ρ c) (Proc.devRef .tc main_v2) = _
  after_results
  rfl
theorem entry_v3 (c : Dev nD) :
    (W1 m ρ c (Proc.devRef .tc main_v3) : S1x256.Idx → EReal) = shapeCast S1x256 ((m ((c : Thread nD τ).loc main_arg10)) : S256.Idx → EReal) shapeCasts_S256_S1x256 := by
  show StableHlo.after hostOps0 (W0 m ρ c) (Proc.devRef .tc main_v3) = _
  after_results
  rfl
theorem entry_v4 (c : Dev nD) :
    (W1 m ρ c (Proc.devRef .tc main_v4) : S1x32000.Idx → EReal) = shapeCast S1x32000 ((m ((c : Thread nD τ).loc main_arg12)) : S32000.Idx → EReal) shapeCasts_S32000_S1x32000 := by
  show StableHlo.after hostOps0 (W0 m ρ c) (Proc.devRef .tc main_v4) = _
  after_results
  rfl

/-! ## The three results -/

/-- The next cell states of the arguments. -/
def cellRes (c : Dev nD) : S8192x256.Idx → EReal :=
  cellArr (a := 8192) ((m ((c : Thread nD τ).loc main_arg0)) : S8192x256.Idx → EReal) ((m ((c : Thread nD τ).loc main_arg1)) : S8192x256.Idx → EReal) ((m ((c : Thread nD τ).loc main_arg2)) : S8192x256.Idx → EReal)
      ((m ((c : Thread nD τ).loc main_arg3)) : S256x768.Idx → EReal) (fun u => ((m ((c : Thread nD τ).loc main_arg4)) : S256.Idx → EReal) (ix1 u))
      ((m ((c : Thread nD τ).loc main_arg5)) : S256x768.Idx → EReal) (fun u => ((m ((c : Thread nD τ).loc main_arg6)) : S256.Idx → EReal) (ix1 u))
      ((m ((c : Thread nD τ).loc main_arg9)) : S256x512.Idx → EReal) (fun u => ((m ((c : Thread nD τ).loc main_arg10)) : S256.Idx → EReal) (ix1 u))

/-- The next hidden states of the arguments. -/
def hidRes (c : Dev nD) : S8192x256.Idx → EReal :=
  hidArr (a := 8192) ((m ((c : Thread nD τ).loc main_arg0)) : S8192x256.Idx → EReal) ((m ((c : Thread nD τ).loc main_arg1)) : S8192x256.Idx → EReal) ((m ((c : Thread nD τ).loc main_arg2)) : S8192x256.Idx → EReal)
      ((m ((c : Thread nD τ).loc main_arg3)) : S256x768.Idx → EReal) (fun u => ((m ((c : Thread nD τ).loc main_arg4)) : S256.Idx → EReal) (ix1 u))
      ((m ((c : Thread nD τ).loc main_arg5)) : S256x768.Idx → EReal) (fun u => ((m ((c : Thread nD τ).loc main_arg6)) : S256.Idx → EReal) (ix1 u))
      ((m ((c : Thread nD τ).loc main_arg7)) : S256x768.Idx → EReal) (fun u => ((m ((c : Thread nD τ).loc main_arg8)) : S256.Idx → EReal) (ix1 u))
      ((m ((c : Thread nD τ).loc main_arg9)) : S256x512.Idx → EReal) (fun u => ((m ((c : Thread nD τ).loc main_arg10)) : S256.Idx → EReal) (ix1 u))

/-- The logits of the next hidden states. -/
def logitRes (c : Dev nD) : S8192x32000.Idx → EReal :=
  logitArr (a := 8192) (n := 32000) (hidRes m c) ((m ((c : Thread nD τ).loc main_arg11)) : S32000x256.Idx → EReal)
    (fun v => ((m ((c : Thread nD τ).loc main_arg12)) : S32000.Idx → EReal) (ix1 v))

/-- The first region's first output, which the second region does not touch. -/
theorem last_cell (c : Dev nD) : (W3 m ρ c (Proc.devRef .tc main_v5_0) : S8192x256.Idx → EReal) = cellRes m c := by
  rw [W3_of_ne m ρ c main_v5_0 (by decide)]
  refine ((W2_arr m ρ c 11).trans (final11 (V1 m ρ) c)).trans ?_
  unfold cellOf cellRes
  rw [entry_arg0, entry_arg1, entry_arg2, entry_arg3, entry_arg5, entry_arg9]
  show cellArr _ _ _ _ (fun u => (W1 m ρ c (Proc.devRef .tc main_v0) : S1x256.Idx → EReal) (ix2 (0 : Fin 1) u)) _
    (fun u => (W1 m ρ c (Proc.devRef .tc main_v1) : S1x256.Idx → EReal) (ix2 (0 : Fin 1) u)) _
    (fun u => (W1 m ρ c (Proc.devRef .tc main_v3) : S1x256.Idx → EReal) (ix2 (0 : Fin 1) u)) = _
  rw [entry_v0, entry_v1, entry_v3]
  simp only [row_entry]

/-- The first region's second output at the boundary between the regions. -/
theorem mid_hid (c : Dev nD) : (W2 m ρ c (Proc.devRef .tc main_v5_1) : S8192x256.Idx → EReal) = hidRes m c := by
  refine ((W2_arr m ρ c 12).trans (final12 (V1 m ρ) c)).trans ?_
  unfold hidOf hidRes
  rw [entry_arg0, entry_arg1, entry_arg2, entry_arg3, entry_arg5, entry_arg7, entry_arg9]
  show hidArr _ _ _ _ (fun u => (W1 m ρ c (Proc.devRef .tc main_v0) : S1x256.Idx → EReal) (ix2 (0 : Fin 1) u)) _
    (fun u => (W1 m ρ c (Proc.devRef .tc main_v1) : S1x256.Idx → EReal) (ix2 (0 : Fin 1) u)) _
    (fun u => (W1 m ρ c (Proc.devRef .tc main_v2) : S1x256.Idx → EReal) (ix2 (0 : Fin 1) u)) _
    (fun u => (W1 m ρ c (Proc.devRef .tc main_v3) : S1x256.Idx → EReal) (ix2 (0 : Fin 1) u)) = _
  rw [entry_v0, entry_v1, entry_v2, entry_v3]
  simp only [row_entry]

/-- The second region reads the hidden states through an input window and leaves them as it found them. -/
theorem last_hid (c : Dev nD) : (W3 m ρ c (Proc.devRef .tc main_v5_1) : S8192x256.Idx → EReal) = hidRes m c :=
  ((W3_arr m ρ c 0).trans (((dat1 (V2 m ρ) c).arrAt_in 0 rfl _).trans (A_eq1 (V2 m ρ) c 0))).trans (mid_hid m ρ c)

/-- The projection's weights at the second region's entry are the argument. -/
theorem mid_arg11 (c : Dev nD) : V2 m ρ c main_arg11 = m ((c : Thread nD τ).loc main_arg11) :=
  ((W3_arr m ρ c 1).trans (((dat1 (V2 m ρ) c).arrAt_in 1 rfl _).trans (A_eq1 (V2 m ρ) c 1))).symm.trans (W3_main_arg11 m ρ c)

/-- The second region's output. -/
theorem last_logit (c : Dev nD) : (W3 m ρ c (Proc.devRef .tc main_v6) : S8192x32000.Idx → EReal) = logitRes m c := by
  refine ((W3_arr m ρ c 3).trans (final3 (V2 m ρ) c)).trans ?_
  unfold logitOf logitRes
  rw [mid_arg11]
  show logitArr (W2 m ρ c (Proc.devRef .tc main_v5_1) : S8192x256.Idx → EReal) _
    (fun v => (W2 m ρ c (Proc.devRef .tc main_v4) : S1x32000.Idx → EReal) (ix2 (0 : Fin 1) v)) = _
  rw [mid_hid, W2_of_ne m ρ c main_v4 (by decide), entry_v4]
  simp only [row_entry]

/-- The run of the kernel's program: each result at its array of the arguments, the arguments unchanged. -/
theorem run : θ_run defs (onTc (τ := τ) (main (F := Ideal))) ⟨m, fun _ => 0, ρ⟩ (fun r => ∀ c : Dev nD,
      r.2.mem ((c.tc : Thread nD τ).loc main_v5_0) = cellRes m c
      ∧ r.2.mem ((c.tc : Thread nD τ).loc main_v5_1) = hidRes m c
      ∧ r.2.mem ((c.tc : Thread nD τ).loc main_v6) = logitRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c).1.trans (last_cell m ρ c), (h c).2.1.trans (last_hid m ρ c), (h c).2.2.1.trans (last_logit m ρ c), (h c).2.2.2⟩)
    (run_results m ρ)

end Cert.KernelIdeal.Results

end
-- ==== Proof.RefValue.lean ====
/-
  The reference, stage by stage, is the same cell.  Its three gates contract the joined row (c, h, x) with the
  TRANSPOSED weight array, whose column u is the weight array's row u; its logistic function is spelt
  1 / (1 + e^(−z)), which on the extended reals is the logistic function by definition; the candidate, the two
  products with tanh and the projection follow the same pattern.  So its three results are the arrays of next cell
  states, next hidden states and logits of its thirteen arguments.
-/
import proofs.«110501_j56401510531656_1_alg».proof.Proof.Gen.ReferenceIdeal.Read
import proofs.«110501_j56401510531656_1_alg».proof.Proof.JoinRead

noncomputable section

open scoped BigOperators

namespace Cert.ReferenceIdeal.RefValue

open Idealize.ShloMosaic Idealize.ShloMosaic.ValueIdx Cert.ReferenceIdeal Cert.ReferenceIdeal.Read Cert.LstmSpec

/-- The word 0x3F800000 is the number one. -/
theorem one_f32 : Ideal.ofBits .f32 0x3F800000#32 = 1 := by
  simp [Ideal.ofBits, Ideal.ieee, -EReal.coe_mul]; norm_num

variable (x0 x1 x2 : (⟨S8192x256, .f32⟩ : BufTy).Contents (Elt Ideal)) (x3 : (⟨S256x768, .f32⟩ : BufTy).Contents (Elt Ideal)) (x4 : (⟨S256, .f32⟩ : BufTy).Contents (Elt Ideal)) (x5 : (⟨S256x768, .f32⟩ : BufTy).Contents (Elt Ideal)) (x6 : (⟨S256, .f32⟩ : BufTy).Contents (Elt Ideal)) (x7 : (⟨S256x768, .f32⟩ : BufTy).Contents (Elt Ideal)) (x8 : (⟨S256, .f32⟩ : BufTy).Contents (Elt Ideal))
  (x9 : (⟨S256x512, .f32⟩ : BufTy).Contents (Elt Ideal)) (x10 : (⟨S256, .f32⟩ : BufTy).Contents (Elt Ideal)) (x11 : (⟨S32000x256, .f32⟩ : BufTy).Contents (Elt Ideal)) (x12 : (⟨S32000, .f32⟩ : BufTy).Contents (Elt Ideal))

/-- The forget gate's pre-activation at (P, u): the joined row (c, h, x) of row P against row u of the weights (the
    reference contracts against the transposed weights, whose column u is that row), plus the bias entry u. -/
theorem pre_f (P : Fin 8192) (u : Fin 256) :
    val_main_v5 (F := Ideal) x0 x1 x2 x3 x4 (ix2 P u)
      = affine (join3 (row x1 P) (row x2 P) (row x0 P)) (row x3 u) (x4 (ix1 u)) := by
  rw [val_main_v5_apply, val_main_v2_apply, val_main_v4_apply, val_main_v3_apply]
  simp only [Ideal.addf_def]
  unfold affine
  refine congrArg₂ (· + ·) (Finset.sum_congr rfl fun k _ => ?_) (congrArg x4 (funext fun a => Fin.ext ?_))
  · have e1 : lidx_main_v2 (ix2 P u) k = ix2 P k := funext fun a => Fin.ext (by
      match a with
      | ⟨0, _⟩ => rfl
      | ⟨1, _⟩ => rfl)
    have e2 : idx_main_v1 (ridx_main_v2 (ix2 P u) k) = ix2 u k := funext fun a => Fin.ext (by
      match a with
      | ⟨0, _⟩ => rfl
      | ⟨1, _⟩ => rfl)
    rw [val_main_v1_apply, e1, e2]
    unfold val_main_v0
    rw [concat3_apply]
    rfl
  · match a with
    | ⟨0, _⟩ => rfl

/-- The reference's logistic function, spelt 1 / (1 + e^(−z)), is the logistic function. -/
theorem sig_f (i : S8192x256.Idx) :
    val_main_v11 (F := Ideal) x0 x1 x2 x3 x4 i = Ideal.logistic (val_main_v5 (F := Ideal) x0 x1 x2 x3 x4 i) := by
  rw [val_main_v11_apply, val_main_v10_apply, val_main_cst_0_apply, val_main_v9_apply, val_main_v8_apply, val_main_cst_apply,
    val_main_v7_apply, val_main_v6_apply]
  simp only [Ideal.ofBits_def, one_f32, Ideal.hostDivf_def, Ideal.addf_def, Ideal.hostUnary_exp_def, Ideal.hostNegf_def, Ideal.negf_def]
  rfl

/-- The update gate's pre-activation at (P, u): the joined row (c, h, x) of row P against row u of the weights (the
    reference contracts against the transposed weights, whose column u is that row), plus the bias entry u. -/
theorem pre_u (P : Fin 8192) (u : Fin 256) :
    val_main_v16 (F := Ideal) x0 x1 x2 x5 x6 (ix2 P u)
      = affine (join3 (row x1 P) (row x2 P) (row x0 P)) (row x5 u) (x6 (ix1 u)) := by
  rw [val_main_v16_apply, val_main_v13_apply, val_main_v15_apply, val_main_v14_apply]
  simp only [Ideal.addf_def]
  unfold affine
  refine congrArg₂ (· + ·) (Finset.sum_congr rfl fun k _ => ?_) (congrArg x6 (funext fun a => Fin.ext ?_))
  · have e1 : lidx_main_v13 (ix2 P u) k = ix2 P k := funext fun a => Fin.ext (by
      match a with
      | ⟨0, _⟩ => rfl
      | ⟨1, _⟩ => rfl)
    have e2 : idx_main_v12 (ridx_main_v13 (ix2 P u) k) = ix2 u k := funext fun a => Fin.ext (by
      match a with
      | ⟨0, _⟩ => rfl
      | ⟨1, _⟩ => rfl)
    rw [val_main_v12_apply, e1, e2]
    unfold val_main_v0
    rw [concat3_apply]
    rfl
  · match a with
    | ⟨0, _⟩ => rfl

/-- The reference's logistic function, spelt 1 / (1 + e^(−z)), is the logistic function. -/
theorem sig_u (i : S8192x256.Idx) :
    val_main_v22 (F := Ideal) x0 x1 x2 x5 x6 i = Ideal.logistic (val_main_v16 (F := Ideal) x0 x1 x2 x5 x6 i) := by
  rw [val_main_v22_apply, val_main_v21_apply, val_main_cst_2_apply, val_main_v20_apply, val_main_v19_apply, val_main_cst_1_apply,
    val_main_v18_apply, val_main_v17_apply]
  simp only [Ideal.ofBits_def, one_f32, Ideal.hostDivf_def, Ideal.addf_def, Ideal.hostUnary_exp_def, Ideal.hostNegf_def, Ideal.negf_def]
  rfl

/-- The output gate's pre-activation at (P, u): the joined row (c, h, x) of row P against row u of the weights (the
    reference contracts against the transposed weights, whose column u is that row), plus the bias entry u. -/
theorem pre_o (P : Fin 8192) (u : Fin 256) :
    val_main_v27 (F := Ideal) x0 x1 x2 x7 x8 (ix2 P u)
      = affine (join3 (row x1 P) (row x2 P) (row x0 P)) (row x7 u) (x8 (ix1 u)) := by
  rw [val_main_v27_apply, val_main_v24_apply, val_main_v26_apply, val_main_v25_apply]
  simp only [Ideal.addf_def]
  unfold affine
  refine congrArg₂ (· + ·) (Finset.sum_congr rfl fun k _ => ?_) (congrArg x8 (funext fun a => Fin.ext ?_))
  · have e1 : lidx_main_v24 (ix2 P u) k = ix2 P k := funext fun a => Fin.ext (by
      match a with
      | ⟨0, _⟩ => rfl
      | ⟨1, _⟩ => rfl)
    have e2 : idx_main_v23 (ridx_main_v24 (ix2 P u) k) = ix2 u k := funext fun a => Fin.ext (by
      match a with
      | ⟨0, _⟩ => rfl
      | ⟨1, _⟩ => rfl)
    rw [val_main_v23_apply, e1, e2]
    unfold val_main_v0
    rw [concat3_apply]
    rfl
  · match a with
    | ⟨0, _⟩ => rfl

/-- The reference's logistic function, spelt 1 / (1 + e^(−z)), is the logistic function. -/
theorem sig_o (i : S8192x256.Idx) :
    val_main_v33 (F := Ideal) x0 x1 x2 x7 x8 i = Ideal.logistic (val_main_v27 (F := Ideal) x0 x1 x2 x7 x8 i) := by
  rw [val_main_v33_apply, val_main_v32_apply, val_main_cst_4_apply, val_main_v31_apply, val_main_v30_apply, val_main_cst_3_apply,
    val_main_v29_apply, val_main_v28_apply]
  simp only [Ideal.ofBits_def, one_f32, Ideal.hostDivf_def, Ideal.addf_def, Ideal.hostUnary_exp_def, Ideal.hostNegf_def, Ideal.negf_def]
  rfl

/-- The candidate's pre-activation at (P, u): the joined row (h, x) against row u of its weights, plus the bias. -/
theorem pre_g (P : Fin 8192) (u : Fin 256) :
    val_main_v39 (F := Ideal) x0 x2 x9 x10 (ix2 P u) = affine (join2 (row x2 P) (row x0 P)) (row x9 u) (x10 (ix1 u)) := by
  rw [val_main_v39_apply, val_main_v36_apply, val_main_v38_apply, val_main_v37_apply]
  simp only [Ideal.addf_def]
  unfold affine
  refine congrArg₂ (· + ·) (Finset.sum_congr rfl fun k _ => ?_) (congrArg x10 (funext fun a => Fin.ext ?_))
  · have e1 : lidx_main_v36 (ix2 P u) k = ix2 P k := funext fun a => Fin.ext (by
      match a with
      | ⟨0, _⟩ => rfl
      | ⟨1, _⟩ => rfl)
    have e2 : idx_main_v35 (ridx_main_v36 (ix2 P u) k) = ix2 u k := funext fun a => Fin.ext (by
      match a with
      | ⟨0, _⟩ => rfl
      | ⟨1, _⟩ => rfl)
    rw [val_main_v35_apply, e1, e2]
    unfold val_main_v34
    rw [concat2_apply]
    rfl
  · match a with
    | ⟨0, _⟩ => rfl

/-- The first result is the array of next cell states. -/
theorem ref_cell :
    val_main_v43 (F := Ideal) x0 x1 x2 x3 x4 x5 x6 x9 x10
      = cellArr (a := 8192) x0 x1 x2 x3 (fun u => x4 (ix1 u)) x5 (fun u => x6 (ix1 u)) x9 (fun u => x10 (ix1 u)) := by
  funext i
  obtain ⟨P, u, rfl⟩ : ∃ (P : Fin 8192) (u : Fin 256), i = ix2 P u := ⟨i 0, i 1, eq_ix2 i⟩
  rw [val_main_v43_apply, val_main_v41_apply, val_main_v42_apply, val_main_v40_apply, sig_f, sig_u, pre_f, pre_u, pre_g]
  simp only [Ideal.addf_def, Ideal.mulf_def, Ideal.hostUnary_tanh_def]
  rfl

/-- The second result is the array of next hidden states. -/
theorem ref_hid :
    val_main_v45 (F := Ideal) x0 x1 x2 x3 x4 x5 x6 x7 x8 x9 x10
      = hidArr (a := 8192) x0 x1 x2 x3 (fun u => x4 (ix1 u)) x5 (fun u => x6 (ix1 u)) x7 (fun u => x8 (ix1 u)) x9 (fun u => x10 (ix1 u)) := by
  funext i
  obtain ⟨P, u, rfl⟩ : ∃ (P : Fin 8192) (u : Fin 256), i = ix2 P u := ⟨i 0, i 1, eq_ix2 i⟩
  rw [val_main_v45_apply, val_main_v44_apply, sig_o, pre_o, ref_cell]
  simp only [Ideal.mulf_def, Ideal.hostUnary_tanh_def]
  rfl

/-- The third result is the array of logits of the next hidden states. -/
theorem ref_logit :
    val_main_v50 (F := Ideal) x0 x1 x2 x3 x4 x5 x6 x7 x8 x9 x10 x11 x12
      = logitArr (a := 8192) (n := 32000)
          (hidArr (a := 8192) x0 x1 x2 x3 (fun u => x4 (ix1 u)) x5 (fun u => x6 (ix1 u)) x7 (fun u => x8 (ix1 u)) x9 (fun u => x10 (ix1 u)))
          x11 (fun v => x12 (ix1 v)) := by
  funext i
  obtain ⟨P, v, rfl⟩ : ∃ (P : Fin 8192) (v : Fin 32000), i = ix2 P v := ⟨i 0, i 1, eq_ix2 i⟩
  rw [val_main_v50_apply, val_main_v47_apply, val_main_v49_apply, val_main_v48_apply, ref_hid]
  simp only [Ideal.addf_def]
  unfold logitArr affine
  refine congrArg₂ (· + ·) (Finset.sum_congr rfl fun k _ => ?_) (congrArg x12 (funext fun a => Fin.ext ?_))
  · have e1 : lidx_main_v47 (ix2 P v) k = ix2 P k := funext fun a => Fin.ext (by
      match a with
      | ⟨0, _⟩ => rfl
      | ⟨1, _⟩ => rfl)
    have e2 : idx_main_v46 (ridx_main_v47 (ix2 P v) k) = ix2 v k := funext fun a => Fin.ext (by
      match a with
      | ⟨0, _⟩ => rfl
      | ⟨1, _⟩ => rfl)
    rw [val_main_v46_apply, e1, e2]
    rfl
  · match a with
    | ⟨0, _⟩ => rfl

end Cert.ReferenceIdeal.RefValue

end
-- ==== Proof.lean ====
/-
  The kernel computes one step of a long short-term memory cell and a projection onto a vocabulary in two
  regions — the gates and the state update over 8 blocks of 1024 rows, then the logits over 10 × 16 tiles — and the
  reference computes the same with whole-array operations.  On the extended reals both end at the same three
  arrays of the thirteen arguments (Proof/Spec.lean): rounding the operands to a shorter float format is the
  identity there; the kernel's products contract the last axis of a weight array kept as outputs × inputs, the
  reference's contract the transposed array, and both are the same sum in the same order; the kernel's logistic
  function and the reference's 1 / (1 + e^(−z)) are one function by definition.  No law of arithmetic is used beyond
  these identifications, so the precondition (finite inputs) is not needed for the equality of results.

  Kernel side: what each body computes from its blocks at one entry (Proof/Block.lean); each region's result
  arrays from the arrays it finds, through the cover of the array by the grid's blocks (Proof/Region0.lean,
  Proof/Region1.lean); the run of the whole program with its final memory named (Proof/KRun.lean); the three
  results as arrays of the arguments (Proof/KValue.lean).  Reference side: its stages read at an entry and folded
  into the same arrays (Proof/RefValue.lean).  The frames of the two kernel programs are their generated frame
  theorems; the reference's frame is its run with the results dropped; the idealization rewrote nothing, so there
  is nothing to preserve.
-/
import proofs.«110501_j56401510531656_1_alg».proof.Defs
import proofs.«110501_j56401510531656_1_alg».proof.Proof.Gen.Kernel
import proofs.«110501_j56401510531656_1_alg».proof.Proof.Gen.Kernel.Skeleton
import proofs.«110501_j56401510531656_1_alg».proof.Proof.Gen.Kernel.Launch
import proofs.«110501_j56401510531656_1_alg».proof.Proof.Gen.Kernel.Points
import proofs.«110501_j56401510531656_1_alg».proof.Proof.Gen.Kernel.Frame
import proofs.«110501_j56401510531656_1_alg».proof.Proof.Gen.KernelIdeal
import proofs.«110501_j56401510531656_1_alg».proof.Proof.Gen.KernelIdeal.Skeleton
import proofs.«110501_j56401510531656_1_alg».proof.Proof.Gen.KernelIdeal.Launch
import proofs.«110501_j56401510531656_1_alg».proof.Proof.Gen.KernelIdeal.Points
import proofs.«110501_j56401510531656_1_alg».proof.Proof.Gen.KernelIdeal.Frame
import proofs.«110501_j56401510531656_1_alg».proof.Proof.Gen.ReferenceIdeal
import proofs.«110501_j56401510531656_1_alg».proof.Proof.Gen.ReferenceIdeal.Run
import proofs.«110501_j56401510531656_1_alg».proof.Proof.Gen.ReferenceIdeal.Read
import proofs.«110501_j56401510531656_1_alg».proof.Proof.Gen.Pre_finite_inputs
import proofs.«110501_j56401510531656_1_alg».proof.Proof.KValue
import proofs.«110501_j56401510531656_1_alg».proof.Proof.RefValue
import Idealize.ShloMosaic.Adequacy
import Idealize.ShloMosaic.Init

noncomputable section

namespace Cert.Proof

open Idealize.ShloMosaic Idealize.ShloMosaic.TcCoe Idealize.SL.Sem

/-- The kernel's program at the word level: its generated frame. -/
theorem frame_k : Cert.frame_Kernel := fun m ρ _ => Cert.Kernel.Gen.frame m ρ

/-- The idealized kernel's program: its generated frame. -/
theorem frame_ki : Cert.frame_KernelIdeal := fun m ρ _ => Cert.KernelIdeal.Gen.frame m ρ

/-- The reference has no kernel: its frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the arguments, the kernel's program ends with the next cell states, the next hidden
    states and the logits of its arguments, and the reference's stages are those same arrays of its own arguments. -/
theorem algebraic : Cert.algebraic_KernelIdeal_ReferenceIdeal := by
  intro m ρ m' ρ' _ hagree
  refine ⟨fun c => Cert.KernelIdeal.Results.cellRes m c, fun c => Cert.KernelIdeal.Results.hidRes m c,
    fun c => Cert.KernelIdeal.Results.logitRes m c, Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  refine ⟨(h c).1.trans ?_, (h c).2.1.trans ?_, (h c).2.2.1.trans ?_, (h c).2.2.2⟩
  · rw [Cert.ReferenceIdeal.Read.val_main_v43_eq, Cert.ReferenceIdeal.RefValue.ref_cell, a0, a1, a2, a3, a4, a5, a6, a9, a10]
    rfl
  · rw [Cert.ReferenceIdeal.Read.val_main_v45_eq, Cert.ReferenceIdeal.RefValue.ref_hid, a0, a1, a2, a3, a4, a5, a6, a7, a8, a9, a10]
    rfl
  · rw [Cert.ReferenceIdeal.Read.val_main_v50_eq, Cert.ReferenceIdeal.RefValue.ref_logit, a0, a1, a2, a3, a4, a5, a6, a7, a8, a9, a10,
      a11, a12]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
